-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x64 : Shape := ⟨2, ![100000, 64]⟩
abbrev S256x64 : Shape := ⟨2, ![256, 64]⟩
abbrev S64x64 : Shape := ⟨2, ![64, 64]⟩
abbrev S64 : Shape := ⟨1, ![64]⟩
abbrev S2x2000000 : Shape := ⟨2, ![2, 2000000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64x64 .f32) (main_arg5 : FVec F S256x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x256 .f32) (main_arg1 : FVec F S100000x64 .f32) (main_arg2 : FVec F S50000x256 .f32) (main_arg3 : FVec F S256x64 .f32) (main_arg4 : FVec F S64x64 .f32) (main_arg5 : FVec F S256x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : IVec S2x2000000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_arg11 main_arg12 main_v13 main_v16
-- ==== Kernel.lean ====
abbrev S50000x256 : Shape := ⟨2, ![50000, 256]⟩
abbrev S100000x64 : Shape := ⟨2, ![100000, 64]⟩
abbrev S256x64 : Shape := ⟨2, ![256, 64]⟩
abbrev S64x64 : Shape := ⟨2, ![64, 64]⟩
abbrev S64 : Shape := ⟨1, ![64]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x256 : Shape := ⟨2, ![100000, 256]⟩
abbrev S2000x256 : Shape := ⟨2, ![2000, 256]⟩
abbrev S2000 : Shape := ⟨1, ![2000]⟩
abbrev S2000x1 : Shape := ⟨2, ![2000, 1]⟩
abbrev S2000x64 : Shape := ⟨2, ![2000, 64]⟩
abbrev S1x64 : Shape := ⟨2, ![1, 64]⟩
abbrev S2000000x64 : Shape := ⟨2, ![2000000, 64]⟩

abbrev nBuf : Space → Nat
  | .hbm => 89
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S100000x64, .f32⟩
  | .hbm, ⟨2, _⟩ => ⟨S50000x256, .f32⟩
  | .hbm, ⟨3, _⟩ => ⟨S256x64, .f32⟩
  | .hbm, ⟨4, _⟩ => ⟨S64x64, .f32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S2x2000000, .i32⟩
  | .hbm, ⟨14, _⟩ => ⟨S1x2000000, .i32⟩
  | .hbm, ⟨15, _⟩ => ⟨S2000000, .i32⟩
  | .hbm, ⟨16, _⟩ => ⟨S1x2000000, .i32⟩
  | .hbm, ⟨17, _⟩ => ⟨S2000000, .i32⟩
  | .hbm, ⟨18, _⟩ => ⟨S_, .f32⟩
  | .hbm, ⟨19, _⟩ => ⟨S2000000, .f32⟩
  | .hbm, ⟨20, _⟩ => ⟨S_, .f32⟩
  | .hbm, ⟨21, _⟩ => ⟨S100000, .f32⟩
  | .hbm, ⟨22, _⟩ => ⟨S2000000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000, .f32⟩
  | .hbm, ⟨48, _⟩ => ⟨S2000000, .f32⟩
  | .hbm, ⟨49, _⟩ => ⟨S100000x256, .f32⟩
  | .hbm, ⟨50, _⟩ => ⟨S100000x256, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S2000000x64, .f32⟩
  | .hbm, ⟨62, _⟩ => ⟨S2000000x1, .f32⟩
  | .hbm, ⟨63, _⟩ => ⟨S2000000x64, .f32⟩
  | .hbm, ⟨64, _⟩ => ⟨S2000000x64, .f32⟩
  | .hbm, ⟨65, _⟩ => ⟨S_, .f32⟩
  | .hbm, ⟨66, _⟩ => ⟨S100000x64, .f32⟩
  | .hbm, ⟨67, _⟩ => ⟨S2000000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S2000000, .i32⟩
  | .hbm, ⟨74, _⟩ => ⟨S2000000, .i1⟩
  | .hbm, ⟨75, _⟩ => ⟨S_, .i32⟩
  | .hbm, ⟨76, _⟩ => ⟨S2000000, .i32⟩
  | .hbm, ⟨77, _⟩ => ⟨S2000000, .i32⟩
  | .hbm, ⟨78, _⟩ => ⟨S2000000, .i32⟩
  | .hbm, ⟨79, _⟩ => ⟨S2000000x1, .i32⟩
  | .hbm, ⟨80, _⟩ => ⟨S2000000x64, .f32⟩
  | .hbm, ⟨81, _⟩ => ⟨S2000000x1, .f32⟩
  | .hbm, ⟨82, _⟩ => ⟨S2000000x64, .f32⟩
  | .hbm, ⟨83, _⟩ => ⟨S2000000x64, .f32⟩
  | .hbm, ⟨84, _⟩ => ⟨S_, .f32⟩
  | .hbm, ⟨85, _⟩ => ⟨S100000x64, .f32⟩
  | .hbm, ⟨86, _⟩ => ⟨S2000000x1, .i32⟩
  | .hbm, ⟨87, _⟩ => ⟨S100000x64, .f32⟩
  | .hbm, ⟨88, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x64, .f32⟩
  | .local _ .vmem, ⟨7, _⟩ => ⟨S256x64, .f32⟩
  | .local _ .vmem, ⟨8, _⟩ => ⟨S64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S64x64, .f32⟩
  | .local _ .vmem, ⟨26, _⟩ => ⟨S64x64, .f32⟩
  | .local _ .vmem, ⟨27, _⟩ => ⟨S64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x64, .f32⟩
  | .local _ .vmem, ⟨37, _⟩ => ⟨S64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem4_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  concatenates_S50000x256_S50000x256_S100000x256_d0 : Shape.Concatenates [S50000x256, S50000x256] S100000x256 0
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  dot_S2000x256_S256x64_S2000x64_1_0_0_1_n_n_wf : DotDims.WF S2000x256 S256x64 S2000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v27) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29_1) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v43) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S2000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v44_0) S2000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v44_1) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v57) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44_1) S2000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x256 : Shape := ⟨2, ![50000, 256]⟩
abbrev S100000x64 : Shape := ⟨2, ![100000, 64]⟩
abbrev S256x64 : Shape := ⟨2, ![256, 64]⟩
abbrev S64x64 : Shape := ⟨2, ![64, 64]⟩
abbrev S64 : Shape := ⟨1, ![64]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x256 : Shape := ⟨2, ![100000, 256]⟩
abbrev S100000x1 : Shape := ⟨2, ![100000, 1]⟩
abbrev S2000000x64 : Shape := ⟨2, ![2000000, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S50000x256, .f32⟩
  | 1 => ⟨S100000x64, .f32⟩
  | 2 => ⟨S50000x256, .f32⟩
  | 3 => ⟨S256x64, .f32⟩
  | 4 => ⟨S64x64, .f32⟩
  | 5 => ⟨S256x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S2x2000000, .i32⟩
  | 14 => ⟨S1x2000000, .i32⟩
  | 15 => ⟨S2000000, .i32⟩
  | 16 => ⟨S1x2000000, .i32⟩
  | 17 => ⟨S2000000, .i32⟩
  | 18 => ⟨S_, .f32⟩
  | 19 => ⟨S2000000, .f32⟩
  | 20 => ⟨S_, .f32⟩
  | 21 => ⟨S100000, .f32⟩
  | 22 => ⟨S2000000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000, .f32⟩
  | 48 => ⟨S2000000, .f32⟩
  | 49 => ⟨S100000x256, .f32⟩
  | 50 => ⟨S100000x256, .f32⟩
  | 51 => ⟨S_, .f32⟩
  | 52 => ⟨S100000, .f32⟩
  | 53 => ⟨S100000x1, .f32⟩
  | 54 => ⟨S100000x1, .f32⟩
  | 55 => ⟨S_, .f32⟩
  | 56 => ⟨S100000x1, .f32⟩
  | 57 => ⟨S100000x1, .f32⟩
  | 58 => ⟨S100000x256, .f32⟩
  | 59 => ⟨S100000x256, .f32⟩
  | 60 => ⟨S100000x64, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x64, .f32⟩
  | 70 => ⟨S2000000x1, .f32⟩
  | 71 => ⟨S2000000x64, .f32⟩
  | 72 => ⟨S2000000x64, .f32⟩
  | 73 => ⟨S_, .f32⟩
  | 74 => ⟨S100000x64, .f32⟩
  | 75 => ⟨S2000000x1, .i32⟩
  | 76 => ⟨S100000x64, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .i1⟩
  | 91 => ⟨S_, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .i1⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000x64, .f32⟩
  | 118 => ⟨S2000000x1, .f32⟩
  | 119 => ⟨S2000000x64, .f32⟩
  | 120 => ⟨S2000000x64, .f32⟩
  | 121 => ⟨S_, .f32⟩
  | 122 => ⟨S100000x64, .f32⟩
  | 123 => ⟨S2000000x1, .i32⟩
  | 124 => ⟨S100000x64, .f32⟩
  | 125 => ⟨S_, .f32⟩
  | 126 => ⟨S100000x64, .f32⟩
  | 127 => ⟨S100000x64, .i1⟩
  | _ => ⟨S50000x256, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .i1⟩
  | 11 => ⟨S_, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S100000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_cst_0 : Ref sig .tc := ⟨.hbm, 104, rfl⟩
abbrev main_call3_v2 : Ref sig .tc := ⟨.hbm, 105, rfl⟩
abbrev main_call3_v3 : Ref sig .tc := ⟨.hbm, 106, rfl⟩
abbrev main_v59 : Ref sig .tc := ⟨.hbm, 107, rfl⟩
abbrev main_v60 : Ref sig .tc := ⟨.hbm, 108, rfl⟩
abbrev main_c_10 : Ref sig .tc := ⟨.hbm, 109, rfl⟩
abbrev main_v61 : Ref sig .tc := ⟨.hbm, 110, rfl⟩
abbrev main_v62 : Ref sig .tc := ⟨.hbm, 111, rfl⟩
abbrev main_c_11 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_12 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_call4_cst : Ref sig .tc := ⟨.hbm, 125, rfl⟩
abbrev main_call4_v0 : Ref sig .tc := ⟨.hbm, 126, rfl⟩
abbrev main_call4_v1 : Ref sig .tc := ⟨.hbm, 127, rfl⟩
abbrev main_call4_cst_0 : Ref sig .tc := ⟨.hbm, 128, rfl⟩
abbrev main_call4_v2 : Ref sig .tc := ⟨.hbm, 129, rfl⟩
abbrev main_call4_v3 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_call5_cst : Ref sig .tc := ⟨.hbm, 136, rfl⟩
abbrev main_call5_v0 : Ref sig .tc := ⟨.hbm, 137, rfl⟩
abbrev main_call5_v1 : Ref sig .tc := ⟨.hbm, 138, rfl⟩
abbrev main_call5_cst_0 : Ref sig .tc := ⟨.hbm, 139, rfl⟩
abbrev main_call5_v2 : Ref sig .tc := ⟨.hbm, 140, rfl⟩
abbrev main_call5_v3 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_call6_cst : Ref sig .tc := ⟨.hbm, 149, rfl⟩
abbrev main_call6_v0 : Ref sig .tc := ⟨.hbm, 150, rfl⟩
abbrev main_call6_v1 : Ref sig .tc := ⟨.hbm, 151, rfl⟩
abbrev main_call6_cst_0 : Ref sig .tc := ⟨.hbm, 152, rfl⟩
abbrev main_call6_v2 : Ref sig .tc := ⟨.hbm, 153, rfl⟩
abbrev main_call6_v3 : Ref sig .tc := ⟨.hbm, 154, rfl⟩
abbrev main_v86 : Ref sig .tc := ⟨.hbm, 155, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  concatenates_S50000x256_S50000x256_S100000x256_d0 : Shape.Concatenates [S50000x256, S50000x256] S100000x256 0
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  dot_S100000x256_S256x64_S100000x64_1_0_0_1_n_n_wf : DotDims.WF S100000x256 S256x64 S100000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x64_S100000x64_1_0_0_1_n_n_wf : DotDims.WF S100000x64 S64x64 S100000x64 [1] [0] [0] [1] [] []

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named. Its @main is five tiled regions among three stretches of host
  operations. From any launch memory every weakly fair execution terminates, nothing faults, the fourteen argument arrays
  end as launched, and the result array ends at the contents the last segment boundary gives it: what the fifth region's
  write-backs leave, each earlier boundary's contents folded from the launch memory through the stretches and regions
  before it.
-/
import proofs.«155893_j10900626998075_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- Every weakly fair execution of @main terminates without a fault; the result array ends at the last boundary's
    contents and every argument array as launched. The segments' chain ends with every unscoped buffer at the last
    boundary's contents; the final state is read against it, at the result buffer as it stands and at each argument
    through the fold back to the launch memory. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Run

end
-- ==== Proof.Spec.lean ====
/-
  The computation both programs perform, stage by stage, on whole arrays over the extended reals.

  Nodes are the rows of [100000, ·] arrays; an edge list gives for each of 2,000,000 edges a destination row and a source
  row. A node's degree is the number of edges that name it as destination, floored at 1; an edge's weight is
  deg(destination)^(-1/2) · deg(source)^(-1/2). Aggregation sends to every node the sum, over the edges that arrive at it, of
  the source node's row scaled by the edge's weight.

  The input features (the two [50000, 256] arrays stacked) are divided row by row by max(‖row‖₂, ε). Then two layers,
  each from the current node array x: project x by one matrix and aggregate over the edges (h); project x by another
  matrix, add a bias row, apply the slope-0.01 leaky rectifier and add the id embedding (x̂); the next x is the leaky
  rectifier of (leaky(h) · G + bias row + x̂).
-/
import proofs.«155893_j10900626998075_1_alg».proof.Proof.Gen.ReferenceIdeal
import Idealize.ShloMosaic.PureOps.Ideal

noncomputable section

namespace Cert.Spec

open Idealize.ShloMosaic Idealize.SL.Sem Cert.ReferenceIdeal Cert.ReferenceIdeal.Facts₀

/-- A float array of a given shape, as a buffer holds it. -/
abbrev Arr (S : Shape) := FVec Ideal S .f32
/-- A 32-bit integer array of a given shape. -/
abbrev Ints (S : Shape) := IVec S 32

/-- The leaky rectifier with slope 0.01 (as the f32 word 0x3C23D70A), entry by entry: x where x ≥ 0, slope · x elsewhere. -/
def leaky (x : Arr S100000x64) : Arr S100000x64 :=
  select (cmpf .oge x (broadcastInDim S100000x64 ![] bcast_S_S100000x64 (constant (F := Ideal) S_ .f32 0x00000000#32)))
    x (mulf (broadcastInDim S100000x64 ![] bcast_S_S100000x64 (constant (F := Ideal) S_ .f32 0x3C23D70A#32)) x)

/-- Every row divided by max(√(Σⱼ xⱼ²), ε), ε the f32 word 0x2B8CBCCC. -/
def rowNormalize (x : Arr S100000x256) : Arr S100000x256 :=
  Host.divf (F := Ideal) x
    (broadcastInDim S100000x256 ![0, 1] bcast_S100000x1_S100000x256_0_1
      (maximumf
        (Host.sqrt (F := Ideal) (broadcastInDim S100000x1 ![0] bcast_S100000_S100000x1_0
          (Host.reduceAdd (F := Ideal) (mulf x x) (constant (F := Ideal) S_ .f32 0x00000000#32) reducesTo_S100000x256_S100000_d1 h_S_)))
        (broadcastInDim S100000x1 ![] bcast_S_S100000x1 (constant (F := Ideal) S_ .f32 0x2B8CBCCC#32))))

/-- A bias row of 64 entries laid against every one of the 100000 rows. -/
def biasRows (b : Arr S64) : Arr S100000x64 :=
  broadcastInDim S100000x64 ![0, 1] bcast_S1x64_S100000x64_0_1 (broadcastInDim S1x64 ![1] bcast_S64_S1x64_1 b)

/-- x · W for x of 256 columns. -/
def proj256 (x : Arr S100000x256) (w : Arr S256x64) : Arr S100000x64 :=
  Host.dotGeneral (F := Ideal) dot_S100000x256_S256x64_S100000x64_1_0_0_1_n_n none x w

/-- x · W for x of 64 columns. -/
def proj64 (x : Arr S100000x64) (w : Arr S64x64) : Arr S100000x64 :=
  Host.dotGeneral (F := Ideal) dot_S100000x64_S64x64_S100000x64_1_0_0_1_n_n none x w

/-- x̂ = leaky(x · L + bias) + id embedding, for x of 256 columns. -/
def hat256 (x : Arr S100000x256) (l : Arr S256x64) (b : Arr S64) (idemb : Arr S100000x64) : Arr S100000x64 :=
  addf (leaky (addf (proj256 x l) (biasRows b))) idemb

/-- x̂ = leaky(x · L + bias) + id embedding, for x of 64 columns. -/
def hat64 (x : Arr S100000x64) (l : Arr S64x64) (b : Arr S64) (idemb : Arr S100000x64) : Arr S100000x64 :=
  addf (leaky (addf (proj64 x l) (biasRows b))) idemb

/-- The layer's output: leaky(leaky(h) · G + bias + x̂). -/
def combine (h : Arr S100000x64) (g : Arr S64x64) (b : Arr S64) (xhat : Arr S100000x64) : Arr S100000x64 :=
  leaky (addf (addf (proj64 (leaky h) g) (biasRows b)) xhat)

/-- The edges' destination rows: row 0 of the edge list. -/
def dstOf (e : Ints S2x2000000) : Ints S2000000 :=
  shapeCast S2000000 (extractStridedSlice S1x2000000 ![0, 0] e slices_S2x2000000_S1x2000000_0_0) shapeCasts_S1x2000000_S2000000

/-- The edges' source rows: row 1 of the edge list. -/
def srcOf (e : Ints S2x2000000) : Ints S2000000 :=
  shapeCast S2000000 (extractStridedSlice S1x2000000 ![1, 0] e slices_S2x2000000_S1x2000000_1_0) shapeCasts_S1x2000000_S2000000

/-- A negative row number counted from the end: i + 100000 where i < 0. -/
def wrap (i : Ints S2000000) : Ints S2000000 :=
  select (cmpi .slt i (broadcastInDim S2000000 ![] bcast_S_S2000000 (constantI S_ 32 0#32)))
    (addi i (broadcastInDim S2000000 ![] bcast_S_S2000000 (constantI S_ 32 100000#32))) i

/-- deg^(-1/2) per node, deg the number of edges arriving at the node, floored at 1. -/
def degInvSqrt (e : Ints S2x2000000) : Arr S100000 :=
  Host.powf (F := Ideal)
    (maximumf
      (Host.scatterAdd (F := Ideal) scatter_S100000_S2000000x1_S2000000_n_0_0_1
        (broadcastInDim S100000 ![] bcast_S_S100000 (constant (F := Ideal) S_ .f32 0x00000000#32))
        (broadcastInDim S2000000x1 ![0] bcast_S2000000_S2000000x1_0 (dstOf e))
        (broadcastInDim S2000000 ![] bcast_S_S2000000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- An edge's weight: deg(destination)^(-1/2) · deg(source)^(-1/2). -/
def edgeWeight (e : Ints S2x2000000) : Arr S2000000 :=
  mulf
    (Host.gather gather_S100000_S2000000x1_S2000000_n_0_n_n_0_1_1 (degInvSqrt e)
      (broadcastInDim S2000000x1 ![0] bcast_S2000000_S2000000x1_0 (wrap (dstOf e))))
    (Host.gather gather_S100000_S2000000x1_S2000000_n_0_n_n_0_1_1 (degInvSqrt e)
      (broadcastInDim S2000000x1 ![0] bcast_S2000000_S2000000x1_0 (wrap (srcOf e))))

/-- Aggregation over the edges: to every node, the sum over its arriving edges of weight · (row of the source node). -/
def aggregate (e : Ints S2x2000000) (wgt : Arr S2000000) (h : Arr S100000x64) : Arr S100000x64 :=
  Host.scatterAdd (F := Ideal) scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 (dstOf e))
    (mulf
      (Host.gather gather_S100000x64_S2000000x1_S2000000x64_1_0_n_n_0_1_164 h
        (broadcastInDim S2000000x1 ![0] bcast_S2000000_S2000000x1_0 (wrap (srcOf e))))
      (broadcastInDim S2000000x64 ![0, 1] bcast_S2000000x1_S2000000x64_0_1
        (broadcastInDim S2000000x1 ![0] bcast_S2000000_S2000000x1_0 wgt)))

/-- The stacked features: preference rows first, then feature rows. -/
def stack (pref feat : Arr S50000x256) : Arr S100000x256 :=
  concatenate S100000x256 0 [⟨S50000x256, pref⟩, ⟨S50000x256, feat⟩] concatenates_S50000x256_S50000x256_S100000x256_d0

/-- The whole computation, of the fourteen arguments in the programs' order. -/
def out (a0 : Arr S50000x256) (a1 : Arr S100000x64) (a2 : Arr S50000x256) (a3 : Arr S256x64) (a4 : Arr S64x64) (a5 : Arr S256x64)
    (a6 : Arr S64) (a7 : Arr S64x64) (a8 : Arr S64) (a9 : Arr S64x64) (a10 : Arr S64) (a11 : Arr S64x64) (a12 : Arr S64)
    (a13 : Ints S2x2000000) : Arr S100000x64 :=
  combine (aggregate a13 (edgeWeight a13) (proj64 (combine (aggregate a13 (edgeWeight a13) (proj256 (rowNormalize (stack a2 a0)) a3)) a9 a10
      (hat256 (rowNormalize (stack a2 a0)) a5 a6 a1)) a4)) a11 a12
    (hat64 (combine (aggregate a13 (edgeWeight a13) (proj256 (rowNormalize (stack a2 a0)) a3)) a9 a10
      (hat256 (rowNormalize (stack a2 a0)) a5 a6 a1)) a7 a8 a1)

end Cert.Spec

end
-- ==== Proof.Blocks0.lean ====
/-
  The first region: row normalization, tiled over 50 blocks of 2000 rows. Point t reads rows 2000·t … 2000·t + 1999 of the
  stacked features (all 256 columns) and writes back the same rows of the result. Every row of the result lies in exactly the
  block of point (row / 2000), so once each block written back is the matching block of ONE whole-array function, the array
  after the region is that function. The function is the specification's row normalization of the region's input array;
  that the body's arithmetic on a block agrees with it index by index is taken here as a hypothesis on the body's payload.
-/
import proofs.«155893_j10900626998075_1_alg».proof.Proof.Gen.KernelIdeal.Frame
import proofs.«155893_j10900626998075_1_alg».proof.Proof.Spec
import Idealize.ShloMosaic.Lib.Pipeline.Value
import Idealize.ShloMosaic.Lib.ValueIdx

noncomputable section

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic on a block of 2000 rows that starts at array row r0 is the row normalization of the whole
    array, read at the block's rows. -/
def NormalizeAt : Prop :=
  ∀ (X : Cert.Spec.Arr Cert.ReferenceIdeal.S100000x256) (x0 : Vec Ideal S2000x256 .f32) (r0 : ℕ) (hr : r0 + 2000 ≤ 100000),
    (∀ (p : Fin 2000) (j : Fin 256), x0 (ix2 p j) = X (ix2 (⟨r0 + p.val, by omega⟩ : Fin 100000) j)) →
    ∀ (p : Fin 2000) (q : Fin 256),
      k0_pay1 (F := Ideal) x0 (ix2 p q) = Cert.Spec.rowNormalize X (ix2 (⟨r0 + p.val, by omega⟩ : Fin 100000) q)

/-- Point t's blocks: both windows sit at block row t, block column 0. -/
theorem index0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem lt50_0 (t : Fin cfg0.N) : t.val < 50 := lt_of_lt_of_eq t.isLt N_0

/-- Entry (p, j) of the input block at point t is entry (2000·t + p, j) of the region's input array. -/
theorem in0_read (c : Dev nD) (t : Fin cfg0.N) (p : Fin 2000) (j : Fin 256) :
    iblk0 V c 0 t (ix2 p j) = V c main_v27 (ix2 (⟨t.val * 2000 + p.val, by have := lt50_0 t; omega⟩ : Fin 100000) j) := by
  obtain ⟨e0, e1, -, -⟩ := index0 t
  show V c main_v27 (((cfg0.win 0).blk t).view.emb (ix2 p j)) = _
  refine congrArg _ ?_
  funext a; apply Fin.ext
  match a with
  | ⟨0, _⟩ => show win0_0.index t (0 : Fin 2) * 2000 + 1 * p.val = t.val * 2000 + p.val; omega
  | ⟨1, _⟩ => show win0_0.index t (1 : Fin 2) * 256 + 1 * j.val = j.val; omega

/-- Entry (p, q) of the output block at point t is entry (2000·t + p, q) of the result array. -/
theorem out0_emb (t : Fin cfg0.N) (p : Fin 2000) (q : Fin 256) :
    ((cfg0.win 1).blk t).view.emb (ix2 p q) = ix2 (⟨t.val * 2000 + p.val, by have := lt50_0 t; omega⟩ : Fin 100000) q := by
  obtain ⟨-, -, e0, e1⟩ := index0 t
  funext a; apply Fin.ext
  match a with
  | ⟨0, _⟩ => show win0_1.index t (0 : Fin 2) * 2000 + 1 * p.val = t.val * 2000 + p.val; omega
  | ⟨1, _⟩ => show win0_1.index t (1 : Fin 2) * 256 + 1 * q.val = q.val; omega

/-- What point t writes back is block t of the row normalization of the region's input array. -/
theorem flushed0_eq (hpw : NormalizeAt) (c : Dev nD) (t : Fin cfg0.N) :
    (dat0 V c).flushed 1 t = ((cfg0.win 1).blk t).view.read (Elt Ideal) (Cert.Spec.rowNormalize (V c main_v27)) := by
  show (cfg0.win 1).cut (grid0.coords t) ((dat0 V c).after 1 t) = _
  rw [after0_1]
  unfold out0_1
  rw [View.canon_unit_zero zero2]
  simp only [View.ld_unit_zero (S := S2000x256) zero2]
  funext y
  obtain ⟨p, q, rfl⟩ : ∃ (p : Fin 2000) (q : Fin 256), y = ix2 p q := ⟨y 0, y 1, eq_ix2 y⟩
  show k0_pay1 (F := Ideal) (iblk0 V c 0 t) (ix2 p q) = Cert.Spec.rowNormalize (V c main_v27) (((cfg0.win 1).blk t).view.emb (ix2 p q))
  rw [out0_emb t p q]
  exact hpw (V c main_v27) (iblk0 V c 0 t) (t.val * 2000) (by have := lt50_0 t; omega) (fun p j => in0_read V c t p j) p q

/-- An index of the result array lies in point t's block iff its row is among the block's 2000 rows (its column always is). -/
theorem mem_blk0 (t : Fin cfg0.N) (i : S100000x256.Idx) :
    i ∈ ((cfg0.win 1).blk t).view.set ↔ ∀ a : Fin 2, win0_1.index t a * S2000x256.size a ≤ (i a).val ∧ (i a).val < win0_1.index t a * S2000x256.size a + S2000x256.size a := by
  show i ∈ ((View.whole main_v28).slice (win0_1.rect t)).set ↔ _
  rw [View.set_slice_whole, Rect.mem_set_unit]
  exact Iff.rfl

/-- Every index of the result array is written back by the point of its row's block. -/
theorem cover0 (i : S100000x256.Idx) : ∃ t : Fin cfg0.N, (cfg0.win 1).flush t = true ∧ i ∈ ((cfg0.win 1).blk t).view.set := by
  have hi0 : (i 0).val < 100000 := (i 0).isLt
  have hi1 : (i 1).val < 256 := (i 1).isLt
  let t : Fin cfg0.N := ⟨(i 0).val / 2000, by rw [show cfg0.N = 50 from N_0]; omega⟩
  obtain ⟨-, -, e0, e1⟩ := index0 t
  have ht : t.val = (i 0).val / 2000 := rfl
  refine ⟨t, flush0_1 t, ?_⟩
  rw [mem_blk0]
  intro a
  match a with
  | ⟨0, _⟩ => show win0_1.index t (0 : Fin 2) * 2000 ≤ (i 0).val ∧ (i 0).val < win0_1.index t (0 : Fin 2) * 2000 + 2000; omega
  | ⟨1, _⟩ => show win0_1.index t (1 : Fin 2) * 256 ≤ (i 1).val ∧ (i 1).val < win0_1.index t (1 : Fin 2) * 256 + 256; omega

/-- The result array after the first region is the row normalization of the region's input array. -/
theorem final0 (hpw : NormalizeAt) (c : Dev nD) :
    (dat0 V c).arrAt 1 cfg0.N = Cert.Spec.rowNormalize (V c main_v27) :=
  (dat0 V c).arrAt_eq_of_cover 1 (Cert.Spec.rowNormalize (V c main_v27)) (fun t _ => flushed0_eq V hpw c t) cover0

end Cert.KernelIdeal.Blocks0

end
-- ==== Proof.Blocks1.lean ====
/-
  The second region: the layer's two projections, tiled over 50 blocks of 2000 rows. Point t reads rows 2000·t … 2000·t + 1999 of
  the node array (256 columns) and of the id embedding (64 columns), the two whole 256×64 matrices and the whole bias row, and
  writes back the same rows of two outputs: the pre-message x · W and x̂ = leaky(x · L + bias) + id embedding. Every row of an
  output lies in exactly the block of point (row / 2000), so once each block written back is the matching block of ONE
  whole-array function, the array after the region is that function: the specification's projection, and its x̂ stage, of the
  region's input arrays. That the body's arithmetic on a block agrees with them index by index is taken here as two
  hypotheses on the body's payloads.
-/
import proofs.«155893_j10900626998075_1_alg».proof.Proof.Gen.KernelIdeal.Frame
import proofs.«155893_j10900626998075_1_alg».proof.Proof.Spec
import Idealize.ShloMosaic.Lib.Pipeline.Value
import Idealize.ShloMosaic.Lib.ValueIdx

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The pre-message payload on a block of 2000 rows that starts at array row r0 is the projection of the whole array, read
    at the block's rows. -/
def ProjAt : Prop :=
  ∀ (X : Cert.Spec.Arr Cert.ReferenceIdeal.S100000x256) (W : Cert.Spec.Arr Cert.ReferenceIdeal.S256x64)
    (x0 : Vec Ideal S2000x256 .f32) (w : Vec Ideal S256x64 .f32) (r0 : ℕ) (hr : r0 + 2000 ≤ 100000),
    (∀ (p : Fin 2000) (j : Fin 256), x0 (ix2 p j) = X (ix2 (⟨r0 + p.val, by omega⟩ : Fin 100000) j)) →
    (∀ (j : Fin 256) (q : Fin 64), w (ix2 j q) = W (ix2 j q)) →
    ∀ (p : Fin 2000) (q : Fin 64),
      k1_pay2 (F := Ideal) x0 w (ix2 p q) = Cert.Spec.proj256 X W (ix2 (⟨r0 + p.val, by omega⟩ : Fin 100000) q)

/-- The x̂ payload on blocks of 2000 rows that start at array row r0 is the x̂ stage of the whole arrays, read at the blocks'
    rows. -/
def HatAt : Prop :=
  ∀ (X : Cert.Spec.Arr Cert.ReferenceIdeal.S100000x256) (L : Cert.Spec.Arr Cert.ReferenceIdeal.S256x64)
    (B : Cert.Spec.Arr Cert.ReferenceIdeal.S64) (ID : Cert.Spec.Arr Cert.ReferenceIdeal.S100000x64)
    (x0 : Vec Ideal S2000x256 .f32) (l : Vec Ideal S256x64 .f32) (b : Vec Ideal S64 .f32) (idb : Vec Ideal S2000x64 .f32)
    (r0 : ℕ) (hr : r0 + 2000 ≤ 100000),
    (∀ (p : Fin 2000) (j : Fin 256), x0 (ix2 p j) = X (ix2 (⟨r0 + p.val, by omega⟩ : Fin 100000) j)) →
    (∀ (j : Fin 256) (q : Fin 64), l (ix2 j q) = L (ix2 j q)) → (∀ q : Fin 64, b (ix1 q) = B (ix1 q)) →
    (∀ (p : Fin 2000) (q : Fin 64), idb (ix2 p q) = ID (ix2 (⟨r0 + p.val, by omega⟩ : Fin 100000) q)) →
    ∀ (p : Fin 2000) (q : Fin 64),
      k1_pay3 (F := Ideal) x0 l b idb (ix2 p q) = Cert.Spec.hat256 X L B ID (ix2 (⟨r0 + p.val, by omega⟩ : Fin 100000) q)

/-- Point t's blocks: the row-tiled windows sit at block row t, block column 0; the matrices and the bias are whole. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt50 (t : Fin cfg1.N) : t.val < 50 := lt_of_lt_of_eq t.isLt N_1

/-- Entry (p, j) of the node block at point t is entry (2000·t + p, j) of the node array. -/
theorem in0_read (c : Dev nD) (t : Fin cfg1.N) (p : Fin 2000) (j : Fin 256) :
    iblk1 V c 0 t (ix2 p j) = V c main_v28 (ix2 (⟨t.val * 2000 + p.val, by have := lt50 t; omega⟩ : Fin 100000) j) := by
  obtain ⟨e0, e1, -⟩ := index1 t
  show V c main_v28 (((cfg1.win 0).blk t).view.emb (ix2 p j)) = _
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 256 + 1 * j.val = j.val; omega

/-- The first matrix block is the whole matrix. -/
theorem in1_read (c : Dev nD) (t : Fin cfg1.N) (j : Fin 256) (q : Fin 64) :
    iblk1 V c 1 t (ix2 j q) = V c main_arg3 (ix2 j q) := by
  obtain ⟨-, -, e0, e1, -⟩ := index1 t
  show V c main_arg3 (((cfg1.win 1).blk t).view.emb (ix2 j q)) = _
  refine congrArg _ ?_
  funext a; apply Fin.ext
  match a with
  | ⟨0, _⟩ => show win1_1.index t (0 : Fin 2) * 256 + 1 * j.val = j.val; omega
  | ⟨1, _⟩ => show win1_1.index t (1 : Fin 2) * 64 + 1 * q.val = q.val; omega

/-- The second matrix block is the whole matrix. -/
theorem in2_read (c : Dev nD) (t : Fin cfg1.N) (j : Fin 256) (q : Fin 64) :
    iblk1 V c 2 t (ix2 j q) = V c main_arg5 (ix2 j q) := by
  obtain ⟨-, -, -, -, e0, e1, -⟩ := index1 t
  show V c main_arg5 (((cfg1.win 2).blk t).view.emb (ix2 j q)) = _
  refine congrArg _ ?_
  funext a; apply Fin.ext
  match a with
  | ⟨0, _⟩ => show win1_2.index t (0 : Fin 2) * 256 + 1 * j.val = j.val; omega
  | ⟨1, _⟩ => show win1_2.index t (1 : Fin 2) * 64 + 1 * q.val = q.val; omega

/-- The bias block is the whole bias row. -/
theorem in3_read (c : Dev nD) (t : Fin cfg1.N) (q : Fin 64) :
    iblk1 V c 3 t (ix1 q) = V c main_arg6 (ix1 q) := by
  obtain ⟨-, -, -, -, -, -, e0, -⟩ := index1 t
  show V c main_arg6 (((cfg1.win 3).blk t).view.emb (ix1 q)) = _
  refine congrArg _ ?_
  funext a; apply Fin.ext
  match a with
  | ⟨0, _⟩ => show win1_3.index t (0 : Fin 1) * 64 + 1 * q.val = q.val; omega

/-- Entry (p, q) of the id-embedding block at point t is entry (2000·t + p, q) of the id embedding. -/
theorem in4_read (c : Dev nD) (t : Fin cfg1.N) (p : Fin 2000) (q : Fin 64) :
    iblk1 V c 4 t (ix2 p q) = V c main_arg1 (ix2 (⟨t.val * 2000 + p.val, by have := lt50 t; omega⟩ : Fin 100000) q) := by
  obtain ⟨-, -, -, -, -, -, -, e0, e1, -⟩ := index1 t
  show V c main_arg1 (((cfg1.win 4).blk t).view.emb (ix2 p q)) = _
  refine congrArg _ ?_
  funext a; apply Fin.ext
  match a with
  | ⟨0, _⟩ => show win1_4.index t (0 : Fin 2) * 2000 + 1 * p.val = t.val * 2000 + p.val; omega
  | ⟨1, _⟩ => show win1_4.index t (1 : Fin 2) * 64 + 1 * q.val = q.val; omega

/-- Entry (p, q) of the pre-message output block at point t is entry (2000·t + p, q) of its array. -/
theorem out5_emb (t : Fin cfg1.N) (p : Fin 2000) (q : Fin 64) :
    ((cfg1.win 5).blk t).view.emb (ix2 p q) = ix2 (⟨t.val * 2000 + p.val, by have := lt50 t; omega⟩ : Fin 100000) q := by
  obtain ⟨-, -, -, -, -, -, -, -, -, e0, e1, -⟩ := index1 t
  funext a; apply Fin.ext
  match a with
  | ⟨0, _⟩ => show win1_5.index t (0 : Fin 2) * 2000 + 1 * p.val = t.val * 2000 + p.val; omega
  | ⟨1, _⟩ => show win1_5.index t (1 : Fin 2) * 64 + 1 * q.val = q.val; omega

/-- Entry (p, q) of the x̂ output block at point t is entry (2000·t + p, q) of its array. -/
theorem out6_emb (t : Fin cfg1.N) (p : Fin 2000) (q : Fin 64) :
    ((cfg1.win 6).blk t).view.emb (ix2 p q) = ix2 (⟨t.val * 2000 + p.val, by have := lt50 t; omega⟩ : Fin 100000) q := by
  obtain ⟨-, -, -, -, -, -, -, -, -, -, -, e0, e1⟩ := index1 t
  funext a; apply Fin.ext
  match a with
  | ⟨0, _⟩ => show win1_6.index t (0 : Fin 2) * 2000 + 1 * p.val = t.val * 2000 + p.val; omega
  | ⟨1, _⟩ => show win1_6.index t (1 : Fin 2) * 64 + 1 * q.val = q.val; omega

/-- What point t writes back to the pre-message array is block t of the projection of the region's input arrays. -/
theorem flushed5_eq (hpw : ProjAt) (c : Dev nD) (t : Fin cfg1.N) :
    (dat1 V c).flushed 5 t = ((cfg1.win 5).blk t).view.read (Elt Ideal) (Cert.Spec.proj256 (V c main_v28) (V c main_arg3)) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256x64) zero2]
  funext y
  obtain ⟨p, q, rfl⟩ : ∃ (p : Fin 2000) (q : Fin 64), y = ix2 p q := ⟨y 0, y 1, eq_ix2 y⟩
  show k1_pay2 (F := Ideal) (iblk1 V c 0 t) (iblk1 V c 1 t) (ix2 p q)
    = Cert.Spec.proj256 (V c main_v28) (V c main_arg3) (((cfg1.win 5).blk t).view.emb (ix2 p q))
  rw [out5_emb t p q]
  exact hpw (V c main_v28) (V c main_arg3) (iblk1 V c 0 t) (iblk1 V c 1 t) (t.val * 2000) (by have := lt50 t; omega)
    (fun p j => in0_read V c t p j) (fun j q => in1_read V c t j q) p q

/-- What point t writes back to the x̂ array is block t of the x̂ stage of the region's input arrays. -/
theorem flushed6_eq (hpw : HatAt) (c : Dev nD) (t : Fin cfg1.N) :
    (dat1 V c).flushed 6 t = ((cfg1.win 6).blk t).view.read (Elt Ideal)
      (Cert.Spec.hat256 (V c main_v28) (V c main_arg5) (V c main_arg6) (V c main_arg1)) := by
  show (cfg1.win 6).cut (grid1.coords t) ((dat1 V c).after 6 t) = _
  rw [after1_6]
  unfold out1_6
  rw [View.canon_unit_zero zero2]
  simp only [View.ld_unit_zero (S := S2000x256) zero2, View.ld_unit_zero (S := S256x64) zero2, View.ld_unit_zero (S := S64) zero1,
    View.ld_unit_zero (S := S2000x64) zero2]
  funext y
  obtain ⟨p, q, rfl⟩ : ∃ (p : Fin 2000) (q : Fin 64), y = ix2 p q := ⟨y 0, y 1, eq_ix2 y⟩
  show k1_pay3 (F := Ideal) (iblk1 V c 0 t) (iblk1 V c 2 t) (iblk1 V c 3 t) (iblk1 V c 4 t) (ix2 p q)
    = Cert.Spec.hat256 (V c main_v28) (V c main_arg5) (V c main_arg6) (V c main_arg1) (((cfg1.win 6).blk t).view.emb (ix2 p q))
  rw [out6_emb t p q]
  exact hpw (V c main_v28) (V c main_arg5) (V c main_arg6) (V c main_arg1)
    (iblk1 V c 0 t) (iblk1 V c 2 t) (iblk1 V c 3 t) (iblk1 V c 4 t) (t.val * 2000) (by have := lt50 t; omega)
    (fun p j => in0_read V c t p j) (fun j q => in2_read V c t j q) (fun q => in3_read V c t q) (fun p q => in4_read V c t p q) p q

/-- An index of the pre-message array lies in point t's block iff its row is among the block's 2000 rows. -/
theorem mem_blk5 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v29_0).slice (win1_5.rect t)).set ↔ _
  rw [View.set_slice_whole, Rect.mem_set_unit]
  exact Iff.rfl

/-- An index of the x̂ array lies in point t's block iff its row is among the block's 2000 rows. -/
theorem mem_blk6 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v29_1).slice (win1_6.rect t)).set ↔ _
  rw [View.set_slice_whole, Rect.mem_set_unit]
  exact Iff.rfl

/-- Every index of the pre-message array is written back by the point of its row's block. -/
theorem cover5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 2000, by rw [show cfg1.N = 50 from N_1]; omega⟩
  obtain ⟨-, -, -, -, -, -, -, -, -, e0, e1, -⟩ := index1 t
  have ht : t.val = (i 0).val / 2000 := rfl
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- Every index of the x̂ array is written back by the point of its row's block. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 2000, by rw [show cfg1.N = 50 from N_1]; omega⟩
  obtain ⟨-, -, -, -, -, -, -, -, -, -, -, e0, e1⟩ := index1 t
  have ht : t.val = (i 0).val / 2000 := rfl
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- The pre-message array after the region is the projection of the region's node array by its first matrix. -/
theorem final5 (hpw : ProjAt) (c : Dev nD) :
    (dat1 V c).arrAt 5 cfg1.N = Cert.Spec.proj256 (V c main_v28) (V c main_arg3) :=
  (dat1 V c).arrAt_eq_of_cover 5 _ (fun t _ => flushed5_eq V hpw c t) cover5

/-- The x̂ array after the region is the x̂ stage of the region's input arrays. -/
theorem final6 (hpw : HatAt) (c : Dev nD) :
    (dat1 V c).arrAt 6 cfg1.N = Cert.Spec.hat256 (V c main_v28) (V c main_arg5) (V c main_arg6) (V c main_arg1) :=
  (dat1 V c).arrAt_eq_of_cover 6 _ (fun t _ => flushed6_eq V hpw c t) cover6

end Cert.KernelIdeal.Blocks1

end
-- ==== Proof.Blocks2.lean ====
/-
  The third region: the layer's combining stage, tiled over 50 blocks of 2000 rows. Point t reads rows 2000·t … 2000·t + 1999 of
  the aggregated messages and of x̂ (64 columns each), the whole 64×64 matrix and the whole bias row, and writes back the same
  rows of the layer's output. Every row of the output lies in exactly the block of point (row / 2000), so once each block
  written back is the matching block of ONE whole-array function, the array after the region is that function: the
  specification's combining stage of the region's four input arrays. That the body's arithmetic on a block agrees with it index
  by index is taken here as a hypothesis on the body's payload.
-/
import proofs.«155893_j10900626998075_1_alg».proof.Proof.Gen.KernelIdeal.Frame
import proofs.«155893_j10900626998075_1_alg».proof.Proof.Spec
import Idealize.ShloMosaic.Lib.Pipeline.Value
import Idealize.ShloMosaic.Lib.ValueIdx

noncomputable section

namespace Cert.KernelIdeal.Blocks2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's arithmetic on blocks of 2000 rows that start at array row r0 is the combining stage of the whole arrays,
    read at the blocks' rows. -/
def CombineAt : Prop :=
  ∀ (H : Cert.Spec.Arr Cert.ReferenceIdeal.S100000x64) (G : Cert.Spec.Arr Cert.ReferenceIdeal.S64x64)
    (B : Cert.Spec.Arr Cert.ReferenceIdeal.S64) (XH : Cert.Spec.Arr Cert.ReferenceIdeal.S100000x64)
    (h : Vec Ideal S2000x64 .f32) (g : Vec Ideal S64x64 .f32) (b : Vec Ideal S64 .f32) (xh : Vec Ideal S2000x64 .f32)
    (r0 : ℕ) (hr : r0 + 2000 ≤ 100000),
    (∀ (p : Fin 2000) (j : Fin 64), h (ix2 p j) = H (ix2 (⟨r0 + p.val, by omega⟩ : Fin 100000) j)) →
    (∀ (j q : Fin 64), g (ix2 j q) = G (ix2 j q)) → (∀ q : Fin 64, b (ix1 q) = B (ix1 q)) →
    (∀ (p : Fin 2000) (q : Fin 64), xh (ix2 p q) = XH (ix2 (⟨r0 + p.val, by omega⟩ : Fin 100000) q)) →
    ∀ (p : Fin 2000) (q : Fin 64),
      k2_pay1 (F := Ideal) h g b xh (ix2 p q) = Cert.Spec.combine H G B XH (ix2 (⟨r0 + p.val, by omega⟩ : Fin 100000) q)

/-- Point t's blocks: the three row-tiled windows sit at block row t, block column 0; the matrix and the bias are whole. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem lt50 (t : Fin cfg2.N) : t.val < 50 := lt_of_lt_of_eq t.isLt N_2

/-- Entry (p, j) of the message block at point t is entry (2000·t + p, j) of the message array. -/
theorem in0_read (c : Dev nD) (t : Fin cfg2.N) (p : Fin 2000) (j : Fin 64) :
    iblk2 V c 0 t (ix2 p j) = V c main_v42 (ix2 (⟨t.val * 2000 + p.val, by have := lt50 t; omega⟩ : Fin 100000) j) := by
  obtain ⟨e0, e1, -⟩ := index2 t
  show V c main_v42 (((cfg2.win 0).blk t).view.emb (ix2 p j)) = _
  refine congrArg _ ?_
  funext a; apply Fin.ext
  match a with
  | ⟨0, _⟩ => show win2_0.index t (0 : Fin 2) * 2000 + 1 * p.val = t.val * 2000 + p.val; omega
  | ⟨1, _⟩ => show win2_0.index t (1 : Fin 2) * 64 + 1 * j.val = j.val; omega

/-- The matrix block is the whole matrix. -/
theorem in1_read (c : Dev nD) (t : Fin cfg2.N) (j q : Fin 64) :
    iblk2 V c 1 t (ix2 j q) = V c main_arg9 (ix2 j q) := by
  obtain ⟨-, -, e0, e1, -⟩ := index2 t
  show V c main_arg9 (((cfg2.win 1).blk t).view.emb (ix2 j q)) = _
  refine congrArg _ ?_
  funext a; apply Fin.ext
  match a with
  | ⟨0, _⟩ => show win2_1.index t (0 : Fin 2) * 64 + 1 * j.val = j.val; omega
  | ⟨1, _⟩ => show win2_1.index t (1 : Fin 2) * 64 + 1 * q.val = q.val; omega

/-- The bias block is the whole bias row. -/
theorem in2_read (c : Dev nD) (t : Fin cfg2.N) (q : Fin 64) :
    iblk2 V c 2 t (ix1 q) = V c main_arg10 (ix1 q) := by
  obtain ⟨-, -, -, -, e0, -⟩ := index2 t
  show V c main_arg10 (((cfg2.win 2).blk t).view.emb (ix1 q)) = _
  refine congrArg _ ?_
  funext a; apply Fin.ext
  match a with
  | ⟨0, _⟩ => show win2_2.index t (0 : Fin 1) * 64 + 1 * q.val = q.val; omega

/-- Entry (p, q) of the x̂ block at point t is entry (2000·t + p, q) of the x̂ array. -/
theorem in3_read (c : Dev nD) (t : Fin cfg2.N) (p : Fin 2000) (q : Fin 64) :
    iblk2 V c 3 t (ix2 p q) = V c main_v29_1 (ix2 (⟨t.val * 2000 + p.val, by have := lt50 t; omega⟩ : Fin 100000) q) := by
  obtain ⟨-, -, -, -, -, e0, e1, -⟩ := index2 t
  show V c main_v29_1 (((cfg2.win 3).blk t).view.emb (ix2 p q)) = _
  refine congrArg _ ?_
  funext a; apply Fin.ext
  match a with
  | ⟨0, _⟩ => show win2_3.index t (0 : Fin 2) * 2000 + 1 * p.val = t.val * 2000 + p.val; omega
  | ⟨1, _⟩ => show win2_3.index t (1 : Fin 2) * 64 + 1 * q.val = q.val; omega

/-- Entry (p, q) of the output block at point t is entry (2000·t + p, q) of the output array. -/
theorem out_emb (t : Fin cfg2.N) (p : Fin 2000) (q : Fin 64) :
    ((cfg2.win 4).blk t).view.emb (ix2 p q) = ix2 (⟨t.val * 2000 + p.val, by have := lt50 t; omega⟩ : Fin 100000) q := by
  obtain ⟨-, -, -, -, -, -, -, e0, e1⟩ := index2 t
  funext a; apply Fin.ext
  match a with
  | ⟨0, _⟩ => show win2_4.index t (0 : Fin 2) * 2000 + 1 * p.val = t.val * 2000 + p.val; omega
  | ⟨1, _⟩ => show win2_4.index t (1 : Fin 2) * 64 + 1 * q.val = q.val; omega

/-- What point t writes back is block t of the combining stage of the region's input arrays. -/
theorem flushed_eq (hpw : CombineAt) (c : Dev nD) (t : Fin cfg2.N) :
    (dat2 V c).flushed 4 t = ((cfg2.win 4).blk t).view.read (Elt Ideal)
      (Cert.Spec.combine (V c main_v42) (V c main_arg9) (V c main_arg10) (V c main_v29_1)) := by
  show (cfg2.win 4).cut (grid2.coords t) ((dat2 V c).after 4 t) = _
  rw [after2_4]
  unfold out2_4
  rw [View.canon_unit_zero zero2]
  simp only [View.ld_unit_zero (S := S2000x64) zero2, View.ld_unit_zero (S := S64x64) zero2, View.ld_unit_zero (S := S64) zero1]
  funext y
  obtain ⟨p, q, rfl⟩ : ∃ (p : Fin 2000) (q : Fin 64), y = ix2 p q := ⟨y 0, y 1, eq_ix2 y⟩
  show k2_pay1 (F := Ideal) (iblk2 V c 0 t) (iblk2 V c 1 t) (iblk2 V c 2 t) (iblk2 V c 3 t) (ix2 p q)
    = Cert.Spec.combine (V c main_v42) (V c main_arg9) (V c main_arg10) (V c main_v29_1) (((cfg2.win 4).blk t).view.emb (ix2 p q))
  rw [out_emb t p q]
  exact hpw (V c main_v42) (V c main_arg9) (V c main_arg10) (V c main_v29_1)
    (iblk2 V c 0 t) (iblk2 V c 1 t) (iblk2 V c 2 t) (iblk2 V c 3 t) (t.val * 2000) (by have := lt50 t; omega)
    (fun p j => in0_read V c t p j) (fun j q => in1_read V c t j q) (fun q => in2_read V c t q) (fun p q => in3_read V c t p q) p q

/-- An index of the output array lies in point t's block iff its row is among the block's 2000 rows. -/
theorem mem_blk (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v43).slice (win2_4.rect t)).set ↔ _
  rw [View.set_slice_whole, Rect.mem_set_unit]
  exact Iff.rfl

/-- Every index of the output array is written back by the point of its row's block. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  let t : Fin cfg2.N := ⟨(i 0).val / 2000, by rw [show cfg2.N = 50 from N_2]; omega⟩
  obtain ⟨-, -, -, -, -, -, -, e0, e1⟩ := index2 t
  have ht : t.val = (i 0).val / 2000 := rfl
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- The output array after the region is the combining stage of the region's input arrays. -/
theorem final (hpw : CombineAt) (c : Dev nD) :
    (dat2 V c).arrAt 4 cfg2.N = Cert.Spec.combine (V c main_v42) (V c main_arg9) (V c main_arg10) (V c main_v29_1) :=
  (dat2 V c).arrAt_eq_of_cover 4 _ (fun t _ => flushed_eq V hpw c t) cover

end Cert.KernelIdeal.Blocks2

end
-- ==== Proof.Blocks3.lean ====
/-
  The fourth region: the layer's two projections, tiled over 50 blocks of 2000 rows. Point t reads rows 2000·t … 2000·t + 1999 of
  the node array (64 columns here) and of the id embedding (64 columns), the two whole 64×64 matrices and the whole bias row, and
  writes back the same rows of two outputs: the pre-message x · W and x̂ = leaky(x · L + bias) + id embedding. Every row of an
  output lies in exactly the block of point (row / 2000), so once each block written back is the matching block of ONE
  whole-array function, the array after the region is that function: the specification's projection, and its x̂ stage, of the
  region's input arrays. That the body's arithmetic on a block agrees with them index by index is taken here as two
  hypotheses on the body's payloads.
-/
import proofs.«155893_j10900626998075_1_alg».proof.Proof.Gen.KernelIdeal.Frame
import proofs.«155893_j10900626998075_1_alg».proof.Proof.Spec
import Idealize.ShloMosaic.Lib.Pipeline.Value
import Idealize.ShloMosaic.Lib.ValueIdx

noncomputable section

namespace Cert.KernelIdeal.Blocks3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The pre-message payload on a block of 2000 rows that starts at array row r0 is the projection of the whole array, read
    at the block's rows. -/
def ProjAt : Prop :=
  ∀ (X : Cert.Spec.Arr Cert.ReferenceIdeal.S100000x64) (W : Cert.Spec.Arr Cert.ReferenceIdeal.S64x64)
    (x0 : Vec Ideal S2000x64 .f32) (w : Vec Ideal S64x64 .f32) (r0 : ℕ) (hr : r0 + 2000 ≤ 100000),
    (∀ (p : Fin 2000) (j : Fin 64), x0 (ix2 p j) = X (ix2 (⟨r0 + p.val, by omega⟩ : Fin 100000) j)) →
    (∀ (j : Fin 64) (q : Fin 64), w (ix2 j q) = W (ix2 j q)) →
    ∀ (p : Fin 2000) (q : Fin 64),
      k3_pay2 (F := Ideal) x0 w (ix2 p q) = Cert.Spec.proj64 X W (ix2 (⟨r0 + p.val, by omega⟩ : Fin 100000) q)

/-- The x̂ payload on blocks of 2000 rows that start at array row r0 is the x̂ stage of the whole arrays, read at the blocks'
    rows. -/
def HatAt : Prop :=
  ∀ (X : Cert.Spec.Arr Cert.ReferenceIdeal.S100000x64) (L : Cert.Spec.Arr Cert.ReferenceIdeal.S64x64)
    (B : Cert.Spec.Arr Cert.ReferenceIdeal.S64) (ID : Cert.Spec.Arr Cert.ReferenceIdeal.S100000x64)
    (x0 : Vec Ideal S2000x64 .f32) (l : Vec Ideal S64x64 .f32) (b : Vec Ideal S64 .f32) (idb : Vec Ideal S2000x64 .f32)
    (r0 : ℕ) (hr : r0 + 2000 ≤ 100000),
    (∀ (p : Fin 2000) (j : Fin 64), x0 (ix2 p j) = X (ix2 (⟨r0 + p.val, by omega⟩ : Fin 100000) j)) →
    (∀ (j : Fin 64) (q : Fin 64), l (ix2 j q) = L (ix2 j q)) → (∀ q : Fin 64, b (ix1 q) = B (ix1 q)) →
    (∀ (p : Fin 2000) (q : Fin 64), idb (ix2 p q) = ID (ix2 (⟨r0 + p.val, by omega⟩ : Fin 100000) q)) →
    ∀ (p : Fin 2000) (q : Fin 64),
      k3_pay3 (F := Ideal) x0 l b idb (ix2 p q) = Cert.Spec.hat64 X L B ID (ix2 (⟨r0 + p.val, by omega⟩ : Fin 100000) q)

/-- Point t's blocks: the row-tiled windows sit at block row t, block column 0; the matrices and the bias are whole. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem lt50 (t : Fin cfg3.N) : t.val < 50 := lt_of_lt_of_eq t.isLt N_3

/-- Entry (p, j) of the node block at point t is entry (2000·t + p, j) of the node array. -/
theorem in0_read (c : Dev nD) (t : Fin cfg3.N) (p : Fin 2000) (j : Fin 64) :
    iblk3 V c 0 t (ix2 p j) = V c main_v43 (ix2 (⟨t.val * 2000 + p.val, by have := lt50 t; omega⟩ : Fin 100000) j) := by
  obtain ⟨e0, e1, -⟩ := index3 t
  show V c main_v43 (((cfg3.win 0).blk t).view.emb (ix2 p j)) = _
  refine congrArg _ ?_
  funext a; apply Fin.ext
  match a with
  | ⟨0, _⟩ => show win3_0.index t (0 : Fin 2) * 2000 + 1 * p.val = t.val * 2000 + p.val; omega
  | ⟨1, _⟩ => show win3_0.index t (1 : Fin 2) * 64 + 1 * j.val = j.val; omega

/-- The first matrix block is the whole matrix. -/
theorem in1_read (c : Dev nD) (t : Fin cfg3.N) (j : Fin 64) (q : Fin 64) :
    iblk3 V c 1 t (ix2 j q) = V c main_arg4 (ix2 j q) := by
  obtain ⟨-, -, e0, e1, -⟩ := index3 t
  show V c main_arg4 (((cfg3.win 1).blk t).view.emb (ix2 j q)) = _
  refine congrArg _ ?_
  funext a; apply Fin.ext
  match a with
  | ⟨0, _⟩ => show win3_1.index t (0 : Fin 2) * 64 + 1 * j.val = j.val; omega
  | ⟨1, _⟩ => show win3_1.index t (1 : Fin 2) * 64 + 1 * q.val = q.val; omega

/-- The second matrix block is the whole matrix. -/
theorem in2_read (c : Dev nD) (t : Fin cfg3.N) (j : Fin 64) (q : Fin 64) :
    iblk3 V c 2 t (ix2 j q) = V c main_arg7 (ix2 j q) := by
  obtain ⟨-, -, -, -, e0, e1, -⟩ := index3 t
  show V c main_arg7 (((cfg3.win 2).blk t).view.emb (ix2 j q)) = _
  refine congrArg _ ?_
  funext a; apply Fin.ext
  match a with
  | ⟨0, _⟩ => show win3_2.index t (0 : Fin 2) * 64 + 1 * j.val = j.val; omega
  | ⟨1, _⟩ => show win3_2.index t (1 : Fin 2) * 64 + 1 * q.val = q.val; omega

/-- The bias block is the whole bias row. -/
theorem in3_read (c : Dev nD) (t : Fin cfg3.N) (q : Fin 64) :
    iblk3 V c 3 t (ix1 q) = V c main_arg8 (ix1 q) := by
  obtain ⟨-, -, -, -, -, -, e0, -⟩ := index3 t
  show V c main_arg8 (((cfg3.win 3).blk t).view.emb (ix1 q)) = _
  refine congrArg _ ?_
  funext a; apply Fin.ext
  match a with
  | ⟨0, _⟩ => show win3_3.index t (0 : Fin 1) * 64 + 1 * q.val = q.val; omega

/-- Entry (p, q) of the id-embedding block at point t is entry (2000·t + p, q) of the id embedding. -/
theorem in4_read (c : Dev nD) (t : Fin cfg3.N) (p : Fin 2000) (q : Fin 64) :
    iblk3 V c 4 t (ix2 p q) = V c main_arg1 (ix2 (⟨t.val * 2000 + p.val, by have := lt50 t; omega⟩ : Fin 100000) q) := by
  obtain ⟨-, -, -, -, -, -, -, e0, e1, -⟩ := index3 t
  show V c main_arg1 (((cfg3.win 4).blk t).view.emb (ix2 p q)) = _
  refine congrArg _ ?_
  funext a; apply Fin.ext
  match a with
  | ⟨0, _⟩ => show win3_4.index t (0 : Fin 2) * 2000 + 1 * p.val = t.val * 2000 + p.val; omega
  | ⟨1, _⟩ => show win3_4.index t (1 : Fin 2) * 64 + 1 * q.val = q.val; omega

/-- Entry (p, q) of the pre-message output block at point t is entry (2000·t + p, q) of its array. -/
theorem out5_emb (t : Fin cfg3.N) (p : Fin 2000) (q : Fin 64) :
    ((cfg3.win 5).blk t).view.emb (ix2 p q) = ix2 (⟨t.val * 2000 + p.val, by have := lt50 t; omega⟩ : Fin 100000) q := by
  obtain ⟨-, -, -, -, -, -, -, -, -, e0, e1, -⟩ := index3 t
  funext a; apply Fin.ext
  match a with
  | ⟨0, _⟩ => show win3_5.index t (0 : Fin 2) * 2000 + 1 * p.val = t.val * 2000 + p.val; omega
  | ⟨1, _⟩ => show win3_5.index t (1 : Fin 2) * 64 + 1 * q.val = q.val; omega

/-- Entry (p, q) of the x̂ output block at point t is entry (2000·t + p, q) of its array. -/
theorem out6_emb (t : Fin cfg3.N) (p : Fin 2000) (q : Fin 64) :
    ((cfg3.win 6).blk t).view.emb (ix2 p q) = ix2 (⟨t.val * 2000 + p.val, by have := lt50 t; omega⟩ : Fin 100000) q := by
  obtain ⟨-, -, -, -, -, -, -, -, -, -, -, e0, e1⟩ := index3 t
  funext a; apply Fin.ext
  match a with
  | ⟨0, _⟩ => show win3_6.index t (0 : Fin 2) * 2000 + 1 * p.val = t.val * 2000 + p.val; omega
  | ⟨1, _⟩ => show win3_6.index t (1 : Fin 2) * 64 + 1 * q.val = q.val; omega

/-- What point t writes back to the pre-message array is block t of the projection of the region's input arrays. -/
theorem flushed5_eq (hpw : ProjAt) (c : Dev nD) (t : Fin cfg3.N) :
    (dat3 V c).flushed 5 t = ((cfg3.win 5).blk t).view.read (Elt Ideal) (Cert.Spec.proj64 (V c main_v43) (V c main_arg4)) := by
  show (cfg3.win 5).cut (grid3.coords t) ((dat3 V c).after 5 t) = _
  rw [after3_5]
  unfold out3_5
  rw [View.canon_unit_zero zero2]
  simp only [View.ld_unit_zero (S := S2000x64) zero2, View.ld_unit_zero (S := S64x64) zero2]
  funext y
  obtain ⟨p, q, rfl⟩ : ∃ (p : Fin 2000) (q : Fin 64), y = ix2 p q := ⟨y 0, y 1, eq_ix2 y⟩
  show k3_pay2 (F := Ideal) (iblk3 V c 0 t) (iblk3 V c 1 t) (ix2 p q)
    = Cert.Spec.proj64 (V c main_v43) (V c main_arg4) (((cfg3.win 5).blk t).view.emb (ix2 p q))
  rw [out5_emb t p q]
  exact hpw (V c main_v43) (V c main_arg4) (iblk3 V c 0 t) (iblk3 V c 1 t) (t.val * 2000) (by have := lt50 t; omega)
    (fun p j => in0_read V c t p j) (fun j q => in1_read V c t j q) p q

/-- What point t writes back to the x̂ array is block t of the x̂ stage of the region's input arrays. -/
theorem flushed6_eq (hpw : HatAt) (c : Dev nD) (t : Fin cfg3.N) :
    (dat3 V c).flushed 6 t = ((cfg3.win 6).blk t).view.read (Elt Ideal)
      (Cert.Spec.hat64 (V c main_v43) (V c main_arg7) (V c main_arg8) (V c main_arg1)) := by
  show (cfg3.win 6).cut (grid3.coords t) ((dat3 V c).after 6 t) = _
  rw [after3_6]
  unfold out3_6
  rw [View.canon_unit_zero zero2]
  simp only [View.ld_unit_zero (S := S2000x64) zero2, View.ld_unit_zero (S := S64x64) zero2, View.ld_unit_zero (S := S64) zero1,
    View.ld_unit_zero (S := S2000x64) zero2]
  funext y
  obtain ⟨p, q, rfl⟩ : ∃ (p : Fin 2000) (q : Fin 64), y = ix2 p q := ⟨y 0, y 1, eq_ix2 y⟩
  show k3_pay3 (F := Ideal) (iblk3 V c 0 t) (iblk3 V c 2 t) (iblk3 V c 3 t) (iblk3 V c 4 t) (ix2 p q)
    = Cert.Spec.hat64 (V c main_v43) (V c main_arg7) (V c main_arg8) (V c main_arg1) (((cfg3.win 6).blk t).view.emb (ix2 p q))
  rw [out6_emb t p q]
  exact hpw (V c main_v43) (V c main_arg7) (V c main_arg8) (V c main_arg1)
    (iblk3 V c 0 t) (iblk3 V c 2 t) (iblk3 V c 3 t) (iblk3 V c 4 t) (t.val * 2000) (by have := lt50 t; omega)
    (fun p j => in0_read V c t p j) (fun j q => in2_read V c t j q) (fun q => in3_read V c t q) (fun p q => in4_read V c t p q) p q

/-- An index of the pre-message array lies in point t's block iff its row is among the block's 2000 rows. -/
theorem mem_blk5 (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v44_0).slice (win3_5.rect t)).set ↔ _
  rw [View.set_slice_whole, Rect.mem_set_unit]
  exact Iff.rfl

/-- An index of the x̂ array lies in point t's block iff its row is among the block's 2000 rows. -/
theorem mem_blk6 (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v44_1).slice (win3_6.rect t)).set ↔ _
  rw [View.set_slice_whole, Rect.mem_set_unit]
  exact Iff.rfl

/-- Every index of the pre-message array is written back by the point of its row's block. -/
theorem cover5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 2000, by rw [show cfg3.N = 50 from N_3]; omega⟩
  obtain ⟨-, -, -, -, -, -, -, -, -, e0, e1, -⟩ := index3 t
  have ht : t.val = (i 0).val / 2000 := rfl
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

/-- Every index of the x̂ array is written back by the point of its row's block. -/
theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  let t : Fin cfg3.N := ⟨(i 0).val / 2000, by rw [show cfg3.N = 50 from N_3]; omega⟩
  obtain ⟨-, -, -, -, -, -, -, -, -, -, -, e0, e1⟩ := index3 t
  have ht : t.val = (i 0).val / 2000 := rfl
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 64 ≤ (i 1).val ∧ (i 1).val < win3_6.index t (1 : Fin 2) * 64 + 64; omega

/-- The pre-message array after the region is the projection of the region's node array by its first matrix. -/
theorem final5 (hpw : ProjAt) (c : Dev nD) :
    (dat3 V c).arrAt 5 cfg3.N = Cert.Spec.proj64 (V c main_v43) (V c main_arg4) :=
  (dat3 V c).arrAt_eq_of_cover 5 _ (fun t _ => flushed5_eq V hpw c t) cover5

/-- The x̂ array after the region is the x̂ stage of the region's input arrays. -/
theorem final6 (hpw : HatAt) (c : Dev nD) :
    (dat3 V c).arrAt 6 cfg3.N = Cert.Spec.hat64 (V c main_v43) (V c main_arg7) (V c main_arg8) (V c main_arg1) :=
  (dat3 V c).arrAt_eq_of_cover 6 _ (fun t _ => flushed6_eq V hpw c t) cover6

end Cert.KernelIdeal.Blocks3

end
-- ==== Proof.Blocks4.lean ====
/-
  The fifth region: the layer's combining stage, tiled over 50 blocks of 2000 rows. Point t reads rows 2000·t … 2000·t + 1999 of
  the aggregated messages and of x̂ (64 columns each), the whole 64×64 matrix and the whole bias row, and writes back the same
  rows of the layer's output. Every row of the output lies in exactly the block of point (row / 2000), so once each block
  written back is the matching block of ONE whole-array function, the array after the region is that function: the
  specification's combining stage of the region's four input arrays. That the body's arithmetic on a block agrees with it index
  by index is taken here as a hypothesis on the body's payload.
-/
import proofs.«155893_j10900626998075_1_alg».proof.Proof.Gen.KernelIdeal.Frame
import proofs.«155893_j10900626998075_1_alg».proof.Proof.Spec
import Idealize.ShloMosaic.Lib.Pipeline.Value
import Idealize.ShloMosaic.Lib.ValueIdx

noncomputable section

namespace Cert.KernelIdeal.Blocks4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's arithmetic on blocks of 2000 rows that start at array row r0 is the combining stage of the whole arrays,
    read at the blocks' rows. -/
def CombineAt : Prop :=
  ∀ (H : Cert.Spec.Arr Cert.ReferenceIdeal.S100000x64) (G : Cert.Spec.Arr Cert.ReferenceIdeal.S64x64)
    (B : Cert.Spec.Arr Cert.ReferenceIdeal.S64) (XH : Cert.Spec.Arr Cert.ReferenceIdeal.S100000x64)
    (h : Vec Ideal S2000x64 .f32) (g : Vec Ideal S64x64 .f32) (b : Vec Ideal S64 .f32) (xh : Vec Ideal S2000x64 .f32)
    (r0 : ℕ) (hr : r0 + 2000 ≤ 100000),
    (∀ (p : Fin 2000) (j : Fin 64), h (ix2 p j) = H (ix2 (⟨r0 + p.val, by omega⟩ : Fin 100000) j)) →
    (∀ (j q : Fin 64), g (ix2 j q) = G (ix2 j q)) → (∀ q : Fin 64, b (ix1 q) = B (ix1 q)) →
    (∀ (p : Fin 2000) (q : Fin 64), xh (ix2 p q) = XH (ix2 (⟨r0 + p.val, by omega⟩ : Fin 100000) q)) →
    ∀ (p : Fin 2000) (q : Fin 64),
      k4_pay1 (F := Ideal) h g b xh (ix2 p q) = Cert.Spec.combine H G B XH (ix2 (⟨r0 + p.val, by omega⟩ : Fin 100000) q)

/-- Point t's blocks: the three row-tiled windows sit at block row t, block column 0; the matrix and the bias are whole. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem lt50 (t : Fin cfg4.N) : t.val < 50 := lt_of_lt_of_eq t.isLt N_4

/-- Entry (p, j) of the message block at point t is entry (2000·t + p, j) of the message array. -/
theorem in0_read (c : Dev nD) (t : Fin cfg4.N) (p : Fin 2000) (j : Fin 64) :
    iblk4 V c 0 t (ix2 p j) = V c main_v57 (ix2 (⟨t.val * 2000 + p.val, by have := lt50 t; omega⟩ : Fin 100000) j) := by
  obtain ⟨e0, e1, -⟩ := index4 t
  show V c main_v57 (((cfg4.win 0).blk t).view.emb (ix2 p j)) = _
  refine congrArg _ ?_
  funext a; apply Fin.ext
  match a with
  | ⟨0, _⟩ => show win4_0.index t (0 : Fin 2) * 2000 + 1 * p.val = t.val * 2000 + p.val; omega
  | ⟨1, _⟩ => show win4_0.index t (1 : Fin 2) * 64 + 1 * j.val = j.val; omega

/-- The matrix block is the whole matrix. -/
theorem in1_read (c : Dev nD) (t : Fin cfg4.N) (j q : Fin 64) :
    iblk4 V c 1 t (ix2 j q) = V c main_arg11 (ix2 j q) := by
  obtain ⟨-, -, e0, e1, -⟩ := index4 t
  show V c main_arg11 (((cfg4.win 1).blk t).view.emb (ix2 j q)) = _
  refine congrArg _ ?_
  funext a; apply Fin.ext
  match a with
  | ⟨0, _⟩ => show win4_1.index t (0 : Fin 2) * 64 + 1 * j.val = j.val; omega
  | ⟨1, _⟩ => show win4_1.index t (1 : Fin 2) * 64 + 1 * q.val = q.val; omega

/-- The bias block is the whole bias row. -/
theorem in2_read (c : Dev nD) (t : Fin cfg4.N) (q : Fin 64) :
    iblk4 V c 2 t (ix1 q) = V c main_arg12 (ix1 q) := by
  obtain ⟨-, -, -, -, e0, -⟩ := index4 t
  show V c main_arg12 (((cfg4.win 2).blk t).view.emb (ix1 q)) = _
  refine congrArg _ ?_
  funext a; apply Fin.ext
  match a with
  | ⟨0, _⟩ => show win4_2.index t (0 : Fin 1) * 64 + 1 * q.val = q.val; omega

/-- Entry (p, q) of the x̂ block at point t is entry (2000·t + p, q) of the x̂ array. -/
theorem in3_read (c : Dev nD) (t : Fin cfg4.N) (p : Fin 2000) (q : Fin 64) :
    iblk4 V c 3 t (ix2 p q) = V c main_v44_1 (ix2 (⟨t.val * 2000 + p.val, by have := lt50 t; omega⟩ : Fin 100000) q) := by
  obtain ⟨-, -, -, -, -, e0, e1, -⟩ := index4 t
  show V c main_v44_1 (((cfg4.win 3).blk t).view.emb (ix2 p q)) = _
  refine congrArg _ ?_
  funext a; apply Fin.ext
  match a with
  | ⟨0, _⟩ => show win4_3.index t (0 : Fin 2) * 2000 + 1 * p.val = t.val * 2000 + p.val; omega
  | ⟨1, _⟩ => show win4_3.index t (1 : Fin 2) * 64 + 1 * q.val = q.val; omega

/-- Entry (p, q) of the output block at point t is entry (2000·t + p, q) of the output array. -/
theorem out_emb (t : Fin cfg4.N) (p : Fin 2000) (q : Fin 64) :
    ((cfg4.win 4).blk t).view.emb (ix2 p q) = ix2 (⟨t.val * 2000 + p.val, by have := lt50 t; omega⟩ : Fin 100000) q := by
  obtain ⟨-, -, -, -, -, -, -, e0, e1⟩ := index4 t
  funext a; apply Fin.ext
  match a with
  | ⟨0, _⟩ => show win4_4.index t (0 : Fin 2) * 2000 + 1 * p.val = t.val * 2000 + p.val; omega
  | ⟨1, _⟩ => show win4_4.index t (1 : Fin 2) * 64 + 1 * q.val = q.val; omega

/-- What point t writes back is block t of the combining stage of the region's input arrays. -/
theorem flushed_eq (hpw : CombineAt) (c : Dev nD) (t : Fin cfg4.N) :
    (dat4 V c).flushed 4 t = ((cfg4.win 4).blk t).view.read (Elt Ideal)
      (Cert.Spec.combine (V c main_v57) (V c main_arg11) (V c main_arg12) (V c main_v44_1)) := by
  show (cfg4.win 4).cut (grid4.coords t) ((dat4 V c).after 4 t) = _
  rw [after4_4]
  unfold out4_4
  rw [View.canon_unit_zero zero2]
  simp only [View.ld_unit_zero (S := S2000x64) zero2, View.ld_unit_zero (S := S64x64) zero2, View.ld_unit_zero (S := S64) zero1]
  funext y
  obtain ⟨p, q, rfl⟩ : ∃ (p : Fin 2000) (q : Fin 64), y = ix2 p q := ⟨y 0, y 1, eq_ix2 y⟩
  show k4_pay1 (F := Ideal) (iblk4 V c 0 t) (iblk4 V c 1 t) (iblk4 V c 2 t) (iblk4 V c 3 t) (ix2 p q)
    = Cert.Spec.combine (V c main_v57) (V c main_arg11) (V c main_arg12) (V c main_v44_1) (((cfg4.win 4).blk t).view.emb (ix2 p q))
  rw [out_emb t p q]
  exact hpw (V c main_v57) (V c main_arg11) (V c main_arg12) (V c main_v44_1)
    (iblk4 V c 0 t) (iblk4 V c 1 t) (iblk4 V c 2 t) (iblk4 V c 3 t) (t.val * 2000) (by have := lt50 t; omega)
    (fun p j => in0_read V c t p j) (fun j q => in1_read V c t j q) (fun q => in2_read V c t q) (fun p q => in3_read V c t p q) p q

/-- An index of the output array lies in point t's block iff its row is among the block's 2000 rows. -/
theorem mem_blk (t : Fin cfg4.N) (i : S100000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v58).slice (win4_4.rect t)).set ↔ _
  rw [View.set_slice_whole, Rect.mem_set_unit]
  exact Iff.rfl

/-- Every index of the output array is written back by the point of its row's block. -/
theorem cover (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  let t : Fin cfg4.N := ⟨(i 0).val / 2000, by rw [show cfg4.N = 50 from N_4]; omega⟩
  obtain ⟨-, -, -, -, -, -, -, e0, e1⟩ := index4 t
  have ht : t.val = (i 0).val / 2000 := rfl
  refine ⟨t, flush4_4 t, ?_⟩
  rw [mem_blk]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 64 ≤ (i 1).val ∧ (i 1).val < win4_4.index t (1 : Fin 2) * 64 + 64; omega

/-- The output array after the region is the combining stage of the region's input arrays. -/
theorem final (hpw : CombineAt) (c : Dev nD) :
    (dat4 V c).arrAt 4 cfg4.N = Cert.Spec.combine (V c main_v57) (V c main_arg11) (V c main_arg12) (V c main_v44_1) :=
  (dat4 V c).arrAt_eq_of_cover 4 _ (fun t _ => flushed_eq V hpw c t) cover

end Cert.KernelIdeal.Blocks4

end
-- ==== Proof.Thread.lean ====
/-
  The idealized kernel's result, read back through its eight segments to the fourteen arguments.

  The first stretch of host operations computes, from the edge list, the edges' destination rows, source rows and weights,
  and stacks the two feature arrays. The first region normalizes the stacked rows; the second projects them (pre-message
  and x̂); the second stretch aggregates the pre-message over the edges; the third region combines. The fourth region
  projects the layer's output, the third stretch aggregates again, the fifth region combines again. Each region's arrays
  after it are the specification's stage of its input arrays (one whole-array function per output, from the blocks written
  back); each stretch's results are its operations' composed terms; every other buffer crosses a segment untouched.
  Composing these from the last boundary back to the launch memory gives the specification's whole computation of the
  arguments.
-/
import proofs.«155893_j10900626998075_1_alg».proof.Proof.Gen.KernelIdeal.Frame
import proofs.«155893_j10900626998075_1_alg».proof.Proof.Spec
import proofs.«155893_j10900626998075_1_alg».proof.Proof.Blocks0
import proofs.«155893_j10900626998075_1_alg».proof.Proof.Blocks1
import proofs.«155893_j10900626998075_1_alg».proof.Proof.Blocks2
import proofs.«155893_j10900626998075_1_alg».proof.Proof.Blocks3
import proofs.«155893_j10900626998075_1_alg».proof.Proof.Blocks4
import Idealize.ShloMosaic.Lib.StableHlo.Run

set_option maxRecDepth 16384

noncomputable section

namespace Cert.KernelIdeal.Thread

open Cert.KernelIdeal Cert.KernelIdeal.Gen Idealize.ShloMosaic Idealize.ShloMosaic.TcCoe Idealize.SL.Sem
open Idealize.ShloMosaic.StableHlo

/-- Aggregation over the edges with the edges' destination and source rows given directly. -/
def aggOn (dst src : Cert.Spec.Ints Cert.ReferenceIdeal.S2000000) (wgt : Cert.Spec.Arr Cert.ReferenceIdeal.S2000000)
    (h : Cert.Spec.Arr Cert.ReferenceIdeal.S100000x64) : Cert.Spec.Arr Cert.ReferenceIdeal.S100000x64 :=
  Host.scatterAdd (F := Ideal) Cert.ReferenceIdeal.scatter_S100000x64_S2000000x1_S2000000x64_1_0_0_1
    (broadcastInDim Cert.ReferenceIdeal.S100000x64 ![] Cert.ReferenceIdeal.Facts₀.bcast_S_S100000x64 (constant (F := Ideal) Cert.ReferenceIdeal.S_ .f32 0x00000000#32))
    (broadcastInDim Cert.ReferenceIdeal.S2000000x1 ![0] Cert.ReferenceIdeal.Facts₀.bcast_S2000000_S2000000x1_0 dst)
    (mulf
      (Host.gather Cert.ReferenceIdeal.gather_S100000x64_S2000000x1_S2000000x64_1_0_n_n_0_1_164 h
        (broadcastInDim Cert.ReferenceIdeal.S2000000x1 ![0] Cert.ReferenceIdeal.Facts₀.bcast_S2000000_S2000000x1_0 (Cert.Spec.wrap src)))
      (broadcastInDim Cert.ReferenceIdeal.S2000000x64 ![0, 1] Cert.ReferenceIdeal.Facts₀.bcast_S2000000x1_S2000000x64_0_1
        (broadcastInDim Cert.ReferenceIdeal.S2000000x1 ![0] Cert.ReferenceIdeal.Facts₀.bcast_S2000000_S2000000x1_0 wgt)))

theorem aggregate_eq (e : Cert.Spec.Ints Cert.ReferenceIdeal.S2x2000000) (wgt : Cert.Spec.Arr Cert.ReferenceIdeal.S2000000)
    (h : Cert.Spec.Arr Cert.ReferenceIdeal.S100000x64) :
    Cert.Spec.aggregate e wgt h = aggOn (Cert.Spec.dstOf e) (Cert.Spec.srcOf e) wgt h := rfl

/-! ## The host stretches, read at the buffers the regions and later stretches consume -/

section Host

variable (W : Valuation τ sig (Elt Ideal))

attribute [local irreducible] Host.scatterAdd Host.gather Host.powf concatenate extractStridedSlice in
theorem host0_stack : after (hostOps0 (F := Ideal)) W (Proc.devRef .tc main_v27)
    = Cert.Spec.stack (W (Proc.devRef .tc main_arg2)) (W (Proc.devRef .tc main_arg0)) := by
  after_results_simp
  rfl

attribute [local irreducible] Host.scatterAdd Host.gather Host.powf concatenate extractStridedSlice in
theorem host0_dst : after (hostOps0 (F := Ideal)) W (Proc.devRef .tc main_v1) = Cert.Spec.dstOf (W (Proc.devRef .tc main_arg13)) := by
  after_results_simp
  rfl

attribute [local irreducible] Host.scatterAdd Host.gather Host.powf concatenate extractStridedSlice in
theorem host0_src : after (hostOps0 (F := Ideal)) W (Proc.devRef .tc main_v3) = Cert.Spec.srcOf (W (Proc.devRef .tc main_arg13)) := by
  after_results_simp
  rfl

attribute [local irreducible] Host.scatterAdd Host.gather Host.powf concatenate extractStridedSlice in
theorem host0_weight : after (hostOps0 (F := Ideal)) W (Proc.devRef .tc main_v26) = Cert.Spec.edgeWeight (W (Proc.devRef .tc main_arg13)) := by
  after_results_simp
  rfl

attribute [local irreducible] Host.scatterAdd Host.gather in
theorem host2_agg : after (hostOps2 (F := Ideal)) W (Proc.devRef .tc main_v42)
    = aggOn (W (Proc.devRef .tc main_v1)) (W (Proc.devRef .tc main_v3)) (W (Proc.devRef .tc main_v26)) (W (Proc.devRef .tc main_v29_0)) := by
  after_results_simp
  rfl

attribute [local irreducible] Host.scatterAdd Host.gather in
theorem host4_agg : after (hostOps4 (F := Ideal)) W (Proc.devRef .tc main_v57)
    = aggOn (W (Proc.devRef .tc main_v1)) (W (Proc.devRef .tc main_v3)) (W (Proc.devRef .tc main_v26)) (W (Proc.devRef .tc main_v44_0)) := by
  after_results_simp
  rfl

end Host

/-- A buffer none of a stretch's operations writes holds after the stretch what it held before. -/
syntax "host_keeps " ident : tactic
macro_rules
  | `(tactic| host_keeps $ops:ident) => `(tactic|
      exact StableHlo.after_of_forall_not_mem _ _ (List.forall_iff_forall_mem.mp (by
        simp only [$ops:ident, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide))))

/-! ## Buffers carried across the segments -/

section Carry

variable (m : (ℓ : Loc nD τ sig) → Buf (Elt Ideal) ℓ) (ρ : Dev nD → PrngReg) (c : Dev nD)

theorem k21 (b : Ref sig .tc) (r0 : ∀ w, Pipeline.arrRef spec0 w ≠ b) :
    W2 m ρ c (Proc.devRef .tc b) = W1 m ρ c (Proc.devRef .tc b) := W2_of_ne m ρ c b r0

theorem k31 (b : Ref sig .tc) (r0 : ∀ w, Pipeline.arrRef spec0 w ≠ b) (r1 : ∀ w, Pipeline.arrRef spec1 w ≠ b) :
    W3 m ρ c (Proc.devRef .tc b) = W1 m ρ c (Proc.devRef .tc b) := (W3_of_ne m ρ c b r1).trans (k21 m ρ c b r0)

theorem k41 (b : Ref sig .tc) (r0 : ∀ w, Pipeline.arrRef spec0 w ≠ b) (r1 : ∀ w, Pipeline.arrRef spec1 w ≠ b)
    (h2 : after (hostOps2 (F := Ideal)) (W3 m ρ c) (Proc.devRef .tc b) = W3 m ρ c (Proc.devRef .tc b)) :
    W4 m ρ c (Proc.devRef .tc b) = W1 m ρ c (Proc.devRef .tc b) := h2.trans (k31 m ρ c b r0 r1)

theorem k51 (b : Ref sig .tc) (r0 : ∀ w, Pipeline.arrRef spec0 w ≠ b) (r1 : ∀ w, Pipeline.arrRef spec1 w ≠ b)
    (h2 : after (hostOps2 (F := Ideal)) (W3 m ρ c) (Proc.devRef .tc b) = W3 m ρ c (Proc.devRef .tc b))
    (r2 : ∀ w, Pipeline.arrRef spec2 w ≠ b) :
    W5 m ρ c (Proc.devRef .tc b) = W1 m ρ c (Proc.devRef .tc b) := (W5_of_ne m ρ c b r2).trans (k41 m ρ c b r0 r1 h2)

theorem k61 (b : Ref sig .tc) (r0 : ∀ w, Pipeline.arrRef spec0 w ≠ b) (r1 : ∀ w, Pipeline.arrRef spec1 w ≠ b)
    (h2 : after (hostOps2 (F := Ideal)) (W3 m ρ c) (Proc.devRef .tc b) = W3 m ρ c (Proc.devRef .tc b))
    (r2 : ∀ w, Pipeline.arrRef spec2 w ≠ b) (r3 : ∀ w, Pipeline.arrRef spec3 w ≠ b) :
    W6 m ρ c (Proc.devRef .tc b) = W1 m ρ c (Proc.devRef .tc b) := (W6_of_ne m ρ c b r3).trans (k51 m ρ c b r0 r1 h2 r2)

theorem k71 (b : Ref sig .tc) (r0 : ∀ w, Pipeline.arrRef spec0 w ≠ b) (r1 : ∀ w, Pipeline.arrRef spec1 w ≠ b)
    (h2 : after (hostOps2 (F := Ideal)) (W3 m ρ c) (Proc.devRef .tc b) = W3 m ρ c (Proc.devRef .tc b))
    (r2 : ∀ w, Pipeline.arrRef spec2 w ≠ b) (r3 : ∀ w, Pipeline.arrRef spec3 w ≠ b)
    (h4 : after (hostOps4 (F := Ideal)) (W6 m ρ c) (Proc.devRef .tc b) = W6 m ρ c (Proc.devRef .tc b)) :
    W7 m ρ c (Proc.devRef .tc b) = W1 m ρ c (Proc.devRef .tc b) := h4.trans (k61 m ρ c b r0 r1 h2 r2 r3)

/-- An argument the first stretch does not write holds at the first boundary its launch contents. -/
theorem a1 (b : Ref sig .tc) (h0 : after (hostOps0 (F := Ideal)) (W0 m ρ c) (Proc.devRef .tc b) = W0 m ρ c (Proc.devRef .tc b)) :
    W1 m ρ c (Proc.devRef .tc b) = m ((c : Thread nD τ).loc b) := h0.trans rfl

end Carry

/-! ## The composition -/

/-- Equal arguments, equal values: for a function of four arguments. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

section Compose

variable (m : (ℓ : Loc nD τ sig) → Buf (Elt Ideal) ℓ) (ρ : Dev nD → PrngReg) (c : Dev nD)

set_option maxHeartbeats 1600000 in
/-- The kernel's result array at the last boundary is the specification's whole computation of the launch arguments. -/
theorem result_eq (hN : Blocks0.NormalizeAt) (hP1 : Blocks1.ProjAt) (hH1 : Blocks1.HatAt) (hC2 : Blocks2.CombineAt)
    (hP3 : Blocks3.ProjAt) (hH3 : Blocks3.HatAt) (hC4 : Blocks4.CombineAt) :
    W8 m ρ c (Proc.devRef .tc main_v58)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  -- the first stretch: the stacked features, the edges' rows and weights
  have eX : W1 m ρ c (Proc.devRef .tc main_v27)
      = Cert.Spec.stack (m ((c : Thread nD τ).loc main_arg2)) (m ((c : Thread nD τ).loc main_arg0)) := host0_stack (W0 m ρ c)
  have eD : W1 m ρ c (Proc.devRef .tc main_v1) = Cert.Spec.dstOf (m ((c : Thread nD τ).loc main_arg13)) := host0_dst (W0 m ρ c)
  have eS : W1 m ρ c (Proc.devRef .tc main_v3) = Cert.Spec.srcOf (m ((c : Thread nD τ).loc main_arg13)) := host0_src (W0 m ρ c)
  have eW : W1 m ρ c (Proc.devRef .tc main_v26) = Cert.Spec.edgeWeight (m ((c : Thread nD τ).loc main_arg13)) := host0_weight (W0 m ρ c)
  -- the first region: the normalized rows
  have e28 : W2 m ρ c (Proc.devRef .tc main_v28)
      = Cert.Spec.rowNormalize (Cert.Spec.stack (m ((c : Thread nD τ).loc main_arg2)) (m ((c : Thread nD τ).loc main_arg0))) :=
    (W2_arr m ρ c 1).trans ((Blocks0.final0 (V1 m ρ) hN c).trans (congrArg Cert.Spec.rowNormalize eX))
  -- the second region: its arguments as launched, its two outputs
  have a3 : W2 m ρ c (Proc.devRef .tc main_arg3) = m ((c : Thread nD τ).loc main_arg3) :=
    (k21 m ρ c main_arg3 (by decide)).trans (a1 m ρ c main_arg3 (by host_keeps hostOps0))
  have a5 : W2 m ρ c (Proc.devRef .tc main_arg5) = m ((c : Thread nD τ).loc main_arg5) :=
    (k21 m ρ c main_arg5 (by decide)).trans (a1 m ρ c main_arg5 (by host_keeps hostOps0))
  have a6 : W2 m ρ c (Proc.devRef .tc main_arg6) = m ((c : Thread nD τ).loc main_arg6) :=
    (k21 m ρ c main_arg6 (by decide)).trans (a1 m ρ c main_arg6 (by host_keeps hostOps0))
  have a1_2 : W2 m ρ c (Proc.devRef .tc main_arg1) = m ((c : Thread nD τ).loc main_arg1) :=
    (k21 m ρ c main_arg1 (by decide)).trans (a1 m ρ c main_arg1 (by host_keeps hostOps0))
  have eP1 : W3 m ρ c (Proc.devRef .tc main_v29_0) = Cert.Spec.proj256 _ (m ((c : Thread nD τ).loc main_arg3)) :=
    (W3_arr m ρ c 5).trans ((Blocks1.final5 (V2 m ρ) hP1 c).trans (congrArg₂ Cert.Spec.proj256 e28 a3))
  have eH1 : W3 m ρ c (Proc.devRef .tc main_v29_1)
      = Cert.Spec.hat256 _ (m ((c : Thread nD τ).loc main_arg5)) (m ((c : Thread nD τ).loc main_arg6)) (m ((c : Thread nD τ).loc main_arg1)) :=
    (W3_arr m ρ c 6).trans ((Blocks1.final6 (V2 m ρ) hH1 c).trans (congr4 Cert.Spec.hat256 e28 a5 a6 a1_2))
  -- the second stretch: the first aggregation
  have d3 : W3 m ρ c (Proc.devRef .tc main_v1) = _ := (k31 m ρ c main_v1 (by decide) (by decide)).trans eD
  have s3 : W3 m ρ c (Proc.devRef .tc main_v3) = _ := (k31 m ρ c main_v3 (by decide) (by decide)).trans eS
  have w3 : W3 m ρ c (Proc.devRef .tc main_v26) = _ := (k31 m ρ c main_v26 (by decide) (by decide)).trans eW
  have eA1 : W4 m ρ c (Proc.devRef .tc main_v42)
      = Cert.Spec.aggregate (m ((c : Thread nD τ).loc main_arg13)) (Cert.Spec.edgeWeight (m ((c : Thread nD τ).loc main_arg13))) _ :=
    (host2_agg (W3 m ρ c)).trans ((congr4 aggOn d3 s3 w3 eP1).trans (aggregate_eq _ _ _).symm)
  -- the third region
  have a9 : W4 m ρ c (Proc.devRef .tc main_arg9) = m ((c : Thread nD τ).loc main_arg9) :=
    (k41 m ρ c main_arg9 (by decide) (by decide) (by host_keeps hostOps2)).trans (a1 m ρ c main_arg9 (by host_keeps hostOps0))
  have a10 : W4 m ρ c (Proc.devRef .tc main_arg10) = m ((c : Thread nD τ).loc main_arg10) :=
    (k41 m ρ c main_arg10 (by decide) (by decide) (by host_keeps hostOps2)).trans (a1 m ρ c main_arg10 (by host_keeps hostOps0))
  have x4 : W4 m ρ c (Proc.devRef .tc main_v29_1) = _ :=
    (show after (hostOps2 (F := Ideal)) (W3 m ρ c) (Proc.devRef .tc main_v29_1) = W3 m ρ c (Proc.devRef .tc main_v29_1) from by
      host_keeps hostOps2).trans eH1
  have eX1 : W5 m ρ c (Proc.devRef .tc main_v43)
      = Cert.Spec.combine _ (m ((c : Thread nD τ).loc main_arg9)) (m ((c : Thread nD τ).loc main_arg10)) _ :=
    (W5_arr m ρ c 4).trans ((Blocks2.final (V4 m ρ) hC2 c).trans (congr4 Cert.Spec.combine eA1 a9 a10 x4))
  -- the fourth region
  have a4 : W5 m ρ c (Proc.devRef .tc main_arg4) = m ((c : Thread nD τ).loc main_arg4) :=
    (k51 m ρ c main_arg4 (by decide) (by decide) (by host_keeps hostOps2) (by decide)).trans (a1 m ρ c main_arg4 (by host_keeps hostOps0))
  have a7 : W5 m ρ c (Proc.devRef .tc main_arg7) = m ((c : Thread nD τ).loc main_arg7) :=
    (k51 m ρ c main_arg7 (by decide) (by decide) (by host_keeps hostOps2) (by decide)).trans (a1 m ρ c main_arg7 (by host_keeps hostOps0))
  have a8 : W5 m ρ c (Proc.devRef .tc main_arg8) = m ((c : Thread nD τ).loc main_arg8) :=
    (k51 m ρ c main_arg8 (by decide) (by decide) (by host_keeps hostOps2) (by decide)).trans (a1 m ρ c main_arg8 (by host_keeps hostOps0))
  -- the id embedding is an input window of the second region: its array after that region is the array as entered
  have a1_5 : W5 m ρ c (Proc.devRef .tc main_arg1) = m ((c : Thread nD τ).loc main_arg1) :=
    (W5_of_ne m ρ c main_arg1 (by decide)).trans
      ((show after (hostOps2 (F := Ideal)) (W3 m ρ c) (Proc.devRef .tc main_arg1) = W3 m ρ c (Proc.devRef .tc main_arg1) from by
          host_keeps hostOps2).trans
        (((W3_arr m ρ c 4).trans (((dat1 (V2 m ρ) c).arrAt_in 4 rfl _).trans (A_eq1 (V2 m ρ) c 4))).trans a1_2))
  have eP2 : W6 m ρ c (Proc.devRef .tc main_v44_0) = Cert.Spec.proj64 _ (m ((c : Thread nD τ).loc main_arg4)) :=
    (W6_arr m ρ c 5).trans ((Blocks3.final5 (V5 m ρ) hP3 c).trans (congrArg₂ Cert.Spec.proj64 eX1 a4))
  have eH2 : W6 m ρ c (Proc.devRef .tc main_v44_1)
      = Cert.Spec.hat64 _ (m ((c : Thread nD τ).loc main_arg7)) (m ((c : Thread nD τ).loc main_arg8)) (m ((c : Thread nD τ).loc main_arg1)) :=
    (W6_arr m ρ c 6).trans ((Blocks3.final6 (V5 m ρ) hH3 c).trans (congr4 Cert.Spec.hat64 eX1 a7 a8 a1_5))
  -- the third stretch: the second aggregation
  have d6 : W6 m ρ c (Proc.devRef .tc main_v1) = _ :=
    (k61 m ρ c main_v1 (by decide) (by decide) (by host_keeps hostOps2) (by decide) (by decide)).trans eD
  have s6 : W6 m ρ c (Proc.devRef .tc main_v3) = _ :=
    (k61 m ρ c main_v3 (by decide) (by decide) (by host_keeps hostOps2) (by decide) (by decide)).trans eS
  have w6 : W6 m ρ c (Proc.devRef .tc main_v26) = _ :=
    (k61 m ρ c main_v26 (by decide) (by decide) (by host_keeps hostOps2) (by decide) (by decide)).trans eW
  have eA2 : W7 m ρ c (Proc.devRef .tc main_v57)
      = Cert.Spec.aggregate (m ((c : Thread nD τ).loc main_arg13)) (Cert.Spec.edgeWeight (m ((c : Thread nD τ).loc main_arg13))) _ :=
    (host4_agg (W6 m ρ c)).trans ((congr4 aggOn d6 s6 w6 eP2).trans (aggregate_eq _ _ _).symm)
  -- the fifth region
  have a11 : W7 m ρ c (Proc.devRef .tc main_arg11) = m ((c : Thread nD τ).loc main_arg11) :=
    (k71 m ρ c main_arg11 (by decide) (by decide) (by host_keeps hostOps2) (by decide) (by decide) (by host_keeps hostOps4)).trans
      (a1 m ρ c main_arg11 (by host_keeps hostOps0))
  have a12 : W7 m ρ c (Proc.devRef .tc main_arg12) = m ((c : Thread nD τ).loc main_arg12) :=
    (k71 m ρ c main_arg12 (by decide) (by decide) (by host_keeps hostOps2) (by decide) (by decide) (by host_keeps hostOps4)).trans
      (a1 m ρ c main_arg12 (by host_keeps hostOps0))
  have x7 : W7 m ρ c (Proc.devRef .tc main_v44_1) = _ :=
    (show after (hostOps4 (F := Ideal)) (W6 m ρ c) (Proc.devRef .tc main_v44_1) = W6 m ρ c (Proc.devRef .tc main_v44_1) from by
      host_keeps hostOps4).trans eH2
  exact (W8_arr m ρ c 4).trans ((Blocks4.final (V7 m ρ) hC4 c).trans ((congr4 Cert.Spec.combine eA2 a11 a12 x7).trans rfl))

end Compose

end Cert.KernelIdeal.Thread

end
-- ==== Proof.RefRun.lean ====
/-
  The reference program's run. Its entry function is a straight line of host operations once the three
  module-local functions it calls (the row norm, the leaky rectifier and the select inside it) are read at
  their call sites, each over that call's own buffers. The line is listed here operation by operation, shown
  equal to the entry function, and run: every weakly fair execution terminates with each buffer at the fold
  of the operations' results over the launch contents.
-/
import proofs.«155893_j10900626998075_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The entry function's 142 operations in order, each call written out over that call's own buffers: the row norm is
    five (square, zero, row sum, column form, square root), the leaky rectifier seven (zero and its broadcast, the
    comparison, the slope and its broadcast, the product, the select). -/
abbrev ops : List (HloOp τ sig (Elt F)) :=
  [ unary main_arg13 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg13 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    nullary main_cst (constant S_ .f32 0x3F800000#32),
    unary main_cst main_v4 (broadcastInDim S2000000 ![] bcast_S_S2000000 : (⟨S_, .f32⟩ : BufTy).Contents (Elt F) → (⟨S2000000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S2000000x1 ![0] bcast_S2000000_S2000000x1_0 : (⟨S2000000, .i32⟩ : BufTy).Contents (Elt F) → (⟨S2000000x1, .i32⟩ : BufTy).Contents (Elt F)),
    ternary main_v5 main_v6 main_v4 main_v7 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v9 main_v10 main_v11 (Host.powf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S2000000 ![] bcast_S_S2000000 : (⟨S_, .i32⟩ : BufTy).Contents (Elt F) → (⟨S2000000, .i32⟩ : BufTy).Contents (Elt F)),
    binary main_v1 main_v12 main_v13 (cmpi .slt : (⟨S2000000, .i32⟩ : BufTy).Contents (Elt F) → (⟨S2000000, .i32⟩ : BufTy).Contents (Elt F) → (⟨S2000000, .i1⟩ : BufTy).Contents (Elt F)),
    nullary main_c_3 (constantI S_ 32 100000#32),
    unary main_c_3 main_v14 (broadcastInDim S2000000 ![] bcast_S_S2000000 : (⟨S_, .i32⟩ : BufTy).Contents (Elt F) → (⟨S2000000, .i32⟩ : BufTy).Contents (Elt F)),
    binary main_v1 main_v14 main_v15 (addi : (⟨S2000000, .i32⟩ : BufTy).Contents (Elt F) → (⟨S2000000, .i32⟩ : BufTy).Contents (Elt F) → (⟨S2000000, .i32⟩ : BufTy).Contents (Elt F)),
    ternary main_v13 main_v15 main_v1 main_v16 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v16 main_v17 (broadcastInDim S2000000x1 ![0] bcast_S2000000_S2000000x1_0 : (⟨S2000000, .i32⟩ : BufTy).Contents (Elt F) → (⟨S2000000x1, .i32⟩ : BufTy).Contents (Elt F)),
    binary main_v11 main_v17 main_v18 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    nullary main_c_4 (constantI S_ 32 0#32),
    unary main_c_4 main_v19 (broadcastInDim S2000000 ![] bcast_S_S2000000 : (⟨S_, .i32⟩ : BufTy).Contents (Elt F) → (⟨S2000000, .i32⟩ : BufTy).Contents (Elt F)),
    binary main_v3 main_v19 main_v20 (cmpi .slt : (⟨S2000000, .i32⟩ : BufTy).Contents (Elt F) → (⟨S2000000, .i32⟩ : BufTy).Contents (Elt F) → (⟨S2000000, .i1⟩ : BufTy).Contents (Elt F)),
    nullary main_c_5 (constantI S_ 32 100000#32),
    unary main_c_5 main_v21 (broadcastInDim S2000000 ![] bcast_S_S2000000 : (⟨S_, .i32⟩ : BufTy).Contents (Elt F) → (⟨S2000000, .i32⟩ : BufTy).Contents (Elt F)),
    binary main_v3 main_v21 main_v22 (addi : (⟨S2000000, .i32⟩ : BufTy).Contents (Elt F) → (⟨S2000000, .i32⟩ : BufTy).Contents (Elt F) → (⟨S2000000, .i32⟩ : BufTy).Contents (Elt F)),
    ternary main_v20 main_v22 main_v3 main_v23 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v23 main_v24 (broadcastInDim S2000000x1 ![0] bcast_S2000000_S2000000x1_0 : (⟨S2000000, .i32⟩ : BufTy).Contents (Elt F) → (⟨S2000000x1, .i32⟩ : BufTy).Contents (Elt F)),
    binary main_v11 main_v24 main_v25 ((fun x i => Host.gather gather_S100000_S2000000x1_S2000000_n_0_n_n_0_1_1 x i) : (⟨S100000, .f32⟩ : BufTy).Contents (Elt F) → (⟨S2000000x1, .i32⟩ : BufTy).Contents (Elt F) → (⟨S2000000, .f32⟩ : BufTy).Contents (Elt F)),
    binary main_v18 main_v25 main_v26 (mulf : (⟨S2000000, .f32⟩ : BufTy).Contents (Elt F) → (⟨S2000000, .f32⟩ : BufTy).Contents (Elt F) → (⟨S2000000, .f32⟩ : BufTy).Contents (Elt F)),
    binary main_arg2 main_arg0 main_v27 ((fun a b => concatenate S100000x256 0 [⟨S50000x256, a⟩, ⟨S50000x256, b⟩] concatenates_S50000x256_S50000x256_S100000x256_d0) : (⟨S50000x256, .f32⟩ : BufTy).Contents (Elt F) → (⟨S50000x256, .f32⟩ : BufTy).Contents (Elt F) → (⟨S100000x256, .f32⟩ : BufTy).Contents (Elt F)),
    binary main_v27 main_v27 main_call0_v0 (mulf : (⟨S100000x256, .f32⟩ : BufTy).Contents (Elt F) → (⟨S100000x256, .f32⟩ : BufTy).Contents (Elt F) → (⟨S100000x256, .f32⟩ : BufTy).Contents (Elt F)),
    nullary main_call0_cst (constant S_ .f32 0x00000000#32),
    binary main_call0_v0 main_call0_cst main_call0_v1 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_call0_v1 main_call0_v2 (broadcastInDim S100000x1 ![0] bcast_S100000_S100000x1_0 : (⟨S100000, .f32⟩ : BufTy).Contents (Elt F) → (⟨S100000x1, .f32⟩ : BufTy).Contents (Elt F)),
    unary main_call0_v2 main_v28 (Host.sqrt : (⟨S100000x1, .f32⟩ : BufTy).Contents (Elt F) → (⟨S100000x1, .f32⟩ : BufTy).Contents (Elt F)),
    nullary main_cst_6 (constant S_ .f32 0x2B8CBCCC#32),
    unary main_cst_6 main_v29 (broadcastInDim S100000x1 ![] bcast_S_S100000x1 : (⟨S_, .f32⟩ : BufTy).Contents (Elt F) → (⟨S100000x1, .f32⟩ : BufTy).Contents (Elt F)),
    binary main_v28 main_v29 main_v30 (maximumf : (⟨S100000x1, .f32⟩ : BufTy).Contents (Elt F) → (⟨S100000x1, .f32⟩ : BufTy).Contents (Elt F) → (⟨S100000x1, .f32⟩ : BufTy).Contents (Elt F)),
    unary main_v30 main_v31 (broadcastInDim S100000x256 ![0, 1] bcast_S100000x1_S100000x256_0_1 : (⟨S100000x1, .f32⟩ : BufTy).Contents (Elt F) → (⟨S100000x256, .f32⟩ : BufTy).Contents (Elt F)),
    binary main_v27 main_v31 main_v32 (Host.divf : (⟨S100000x256, .f32⟩ : BufTy).Contents (Elt F) → (⟨S100000x256, .f32⟩ : BufTy).Contents (Elt F) → (⟨S100000x256, .f32⟩ : BufTy).Contents (Elt F)),
    binary main_v32 main_arg3 main_v33 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_7 (constantI S_ 32 0#32),
    unary main_c_7 main_v34 (broadcastInDim S2000000 ![] bcast_S_S2000000 : (⟨S_, .i32⟩ : BufTy).Contents (Elt F) → (⟨S2000000, .i32⟩ : BufTy).Contents (Elt F)),
    binary main_v3 main_v34 main_v35 (cmpi .slt : (⟨S2000000, .i32⟩ : BufTy).Contents (Elt F) → (⟨S2000000, .i32⟩ : BufTy).Contents (Elt F) → (⟨S2000000, .i1⟩ : BufTy).Contents (Elt F)),
    nullary main_c_8 (constantI S_ 32 100000#32),
    unary main_c_8 main_v36 (broadcastInDim S2000000 ![] bcast_S_S2000000 : (⟨S_, .i32⟩ : BufTy).Contents (Elt F) → (⟨S2000000, .i32⟩ : BufTy).Contents (Elt F)),
    binary main_v3 main_v36 main_v37 (addi : (⟨S2000000, .i32⟩ : BufTy).Contents (Elt F) → (⟨S2000000, .i32⟩ : BufTy).Contents (Elt F) → (⟨S2000000, .i32⟩ : BufTy).Contents (Elt F)),
    ternary main_v35 main_v37 main_v3 main_v38 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v38 main_v39 (broadcastInDim S2000000x1 ![0] bcast_S2000000_S2000000x1_0 : (⟨S2000000, .i32⟩ : BufTy).Contents (Elt F) → (⟨S2000000x1, .i32⟩ : BufTy).Contents (Elt F)),
    binary main_v33 main_v39 main_v40 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v26 main_v41 (broadcastInDim S2000000x1 ![0] bcast_S2000000_S2000000x1_0 : (⟨S2000000, .f32⟩ : BufTy).Contents (Elt F) → (⟨S2000000x1, .f32⟩ : BufTy).Contents (Elt F)),
    unary main_v41 main_v42 (broadcastInDim S2000000x64 ![0, 1] bcast_S2000000x1_S2000000x64_0_1 : (⟨S2000000x1, .f32⟩ : BufTy).Contents (Elt F) → (⟨S2000000x64, .f32⟩ : BufTy).Contents (Elt F)),
    binary main_v40 main_v42 main_v43 (mulf : (⟨S2000000x64, .f32⟩ : BufTy).Contents (Elt F) → (⟨S2000000x64, .f32⟩ : BufTy).Contents (Elt F) → (⟨S2000000x64, .f32⟩ : BufTy).Contents (Elt F)),
    nullary main_cst_9 (constant S_ .f32 0x00000000#32),
    unary main_cst_9 main_v44 (broadcastInDim S100000x64 ![] bcast_S_S100000x64 : (⟨S_, .f32⟩ : BufTy).Contents (Elt F) → (⟨S100000x64, .f32⟩ : BufTy).Contents (Elt F)),
    unary main_v1 main_v45 (broadcastInDim S2000000x1 ![0] bcast_S2000000_S2000000x1_0 : (⟨S2000000, .i32⟩ : BufTy).Contents (Elt F) → (⟨S2000000x1, .i32⟩ : BufTy).Contents (Elt F)),
    ternary main_v44 main_v45 main_v43 main_v46 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_call1_cst (constant S_ .f32 0x00000000#32),
    unary main_call1_cst main_call1_v0 (broadcastInDim S100000x64 ![] bcast_S_S100000x64 : (⟨S_, .f32⟩ : BufTy).Contents (Elt F) → (⟨S100000x64, .f32⟩ : BufTy).Contents (Elt F)),
    binary main_v46 main_call1_v0 main_call1_v1 (cmpf .oge : (⟨S100000x64, .f32⟩ : BufTy).Contents (Elt F) → (⟨S100000x64, .f32⟩ : BufTy).Contents (Elt F) → (⟨S100000x64, .i1⟩ : BufTy).Contents (Elt F)),
    nullary main_call1_cst_0 (constant S_ .f32 0x3C23D70A#32),
    unary main_call1_cst_0 main_call1_v2 (broadcastInDim S100000x64 ![] bcast_S_S100000x64 : (⟨S_, .f32⟩ : BufTy).Contents (Elt F) → (⟨S100000x64, .f32⟩ : BufTy).Contents (Elt F)),
    binary main_call1_v2 main_v46 main_call1_v3 (mulf : (⟨S100000x64, .f32⟩ : BufTy).Contents (Elt F) → (⟨S100000x64, .f32⟩ : BufTy).Contents (Elt F) → (⟨S100000x64, .f32⟩ : BufTy).Contents (Elt F)),
    ternary main_call1_v1 main_v46 main_call1_v3 main_v47 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v32 main_arg5 main_v48 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg6 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    nullary main_call2_cst (constant S_ .f32 0x00000000#32),
    unary main_call2_cst main_call2_v0 (broadcastInDim S100000x64 ![] bcast_S_S100000x64 : (⟨S_, .f32⟩ : BufTy).Contents (Elt F) → (⟨S100000x64, .f32⟩ : BufTy).Contents (Elt F)),
    binary main_v51 main_call2_v0 main_call2_v1 (cmpf .oge : (⟨S100000x64, .f32⟩ : BufTy).Contents (Elt F) → (⟨S100000x64, .f32⟩ : BufTy).Contents (Elt F) → (⟨S100000x64, .i1⟩ : BufTy).Contents (Elt F)),
    nullary main_call2_cst_0 (constant S_ .f32 0x3C23D70A#32),
    unary main_call2_cst_0 main_call2_v2 (broadcastInDim S100000x64 ![] bcast_S_S100000x64 : (⟨S_, .f32⟩ : BufTy).Contents (Elt F) → (⟨S100000x64, .f32⟩ : BufTy).Contents (Elt F)),
    binary main_call2_v2 main_v51 main_call2_v3 (mulf : (⟨S100000x64, .f32⟩ : BufTy).Contents (Elt F) → (⟨S100000x64, .f32⟩ : BufTy).Contents (Elt F) → (⟨S100000x64, .f32⟩ : BufTy).Contents (Elt F)),
    ternary main_call2_v1 main_v51 main_call2_v3 main_v52 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v52 main_arg1 main_v53 (addf : (⟨S100000x64, .f32⟩ : BufTy).Contents (Elt F) → (⟨S100000x64, .f32⟩ : BufTy).Contents (Elt F) → (⟨S100000x64, .f32⟩ : BufTy).Contents (Elt F)),
    binary main_v47 main_arg9 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v54 main_v56 main_v57 (addf : (⟨S100000x64, .f32⟩ : BufTy).Contents (Elt F) → (⟨S100000x64, .f32⟩ : BufTy).Contents (Elt F) → (⟨S100000x64, .f32⟩ : BufTy).Contents (Elt F)),
    binary main_v57 main_v53 main_v58 (addf : (⟨S100000x64, .f32⟩ : BufTy).Contents (Elt F) → (⟨S100000x64, .f32⟩ : BufTy).Contents (Elt F) → (⟨S100000x64, .f32⟩ : BufTy).Contents (Elt F)),
    nullary main_call3_cst (constant S_ .f32 0x00000000#32),
    unary main_call3_cst main_call3_v0 (broadcastInDim S100000x64 ![] bcast_S_S100000x64 : (⟨S_, .f32⟩ : BufTy).Contents (Elt F) → (⟨S100000x64, .f32⟩ : BufTy).Contents (Elt F)),
    binary main_v58 main_call3_v0 main_call3_v1 (cmpf .oge : (⟨S100000x64, .f32⟩ : BufTy).Contents (Elt F) → (⟨S100000x64, .f32⟩ : BufTy).Contents (Elt F) → (⟨S100000x64, .i1⟩ : BufTy).Contents (Elt F)),
    nullary main_call3_cst_0 (constant S_ .f32 0x3C23D70A#32),
    unary main_call3_cst_0 main_call3_v2 (broadcastInDim S100000x64 ![] bcast_S_S100000x64 : (⟨S_, .f32⟩ : BufTy).Contents (Elt F) → (⟨S100000x64, .f32⟩ : BufTy).Contents (Elt F)),
    binary main_call3_v2 main_v58 main_call3_v3 (mulf : (⟨S100000x64, .f32⟩ : BufTy).Contents (Elt F) → (⟨S100000x64, .f32⟩ : BufTy).Contents (Elt F) → (⟨S100000x64, .f32⟩ : BufTy).Contents (Elt F)),
    ternary main_call3_v1 main_v58 main_call3_v3 main_v59 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v59 main_arg4 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v61 (broadcastInDim S2000000 ![] bcast_S_S2000000 : (⟨S_, .i32⟩ : BufTy).Contents (Elt F) → (⟨S2000000, .i32⟩ : BufTy).Contents (Elt F)),
    binary main_v3 main_v61 main_v62 (cmpi .slt : (⟨S2000000, .i32⟩ : BufTy).Contents (Elt F) → (⟨S2000000, .i32⟩ : BufTy).Contents (Elt F) → (⟨S2000000, .i1⟩ : BufTy).Contents (Elt F)),
    nullary main_c_11 (constantI S_ 32 100000#32),
    unary main_c_11 main_v63 (broadcastInDim S2000000 ![] bcast_S_S2000000 : (⟨S_, .i32⟩ : BufTy).Contents (Elt F) → (⟨S2000000, .i32⟩ : BufTy).Contents (Elt F)),
    binary main_v3 main_v63 main_v64 (addi : (⟨S2000000, .i32⟩ : BufTy).Contents (Elt F) → (⟨S2000000, .i32⟩ : BufTy).Contents (Elt F) → (⟨S2000000, .i32⟩ : BufTy).Contents (Elt F)),
    ternary main_v62 main_v64 main_v3 main_v65 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v65 main_v66 (broadcastInDim S2000000x1 ![0] bcast_S2000000_S2000000x1_0 : (⟨S2000000, .i32⟩ : BufTy).Contents (Elt F) → (⟨S2000000x1, .i32⟩ : BufTy).Contents (Elt F)),
    binary main_v60 main_v66 main_v67 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    unary main_v26 main_v68 (broadcastInDim S2000000x1 ![0] bcast_S2000000_S2000000x1_0 : (⟨S2000000, .f32⟩ : BufTy).Contents (Elt F) → (⟨S2000000x1, .f32⟩ : BufTy).Contents (Elt F)),
    unary main_v68 main_v69 (broadcastInDim S2000000x64 ![0, 1] bcast_S2000000x1_S2000000x64_0_1 : (⟨S2000000x1, .f32⟩ : BufTy).Contents (Elt F) → (⟨S2000000x64, .f32⟩ : BufTy).Contents (Elt F)),
    binary main_v67 main_v69 main_v70 (mulf : (⟨S2000000x64, .f32⟩ : BufTy).Contents (Elt F) → (⟨S2000000x64, .f32⟩ : BufTy).Contents (Elt F) → (⟨S2000000x64, .f32⟩ : BufTy).Contents (Elt F)),
    nullary main_cst_12 (constant S_ .f32 0x00000000#32),
    unary main_cst_12 main_v71 (broadcastInDim S100000x64 ![] bcast_S_S100000x64 : (⟨S_, .f32⟩ : BufTy).Contents (Elt F) → (⟨S100000x64, .f32⟩ : BufTy).Contents (Elt F)),
    unary main_v1 main_v72 (broadcastInDim S2000000x1 ![0] bcast_S2000000_S2000000x1_0 : (⟨S2000000, .i32⟩ : BufTy).Contents (Elt F) → (⟨S2000000x1, .i32⟩ : BufTy).Contents (Elt F)),
    ternary main_v71 main_v72 main_v70 main_v73 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_call4_cst (constant S_ .f32 0x00000000#32),
    unary main_call4_cst main_call4_v0 (broadcastInDim S100000x64 ![] bcast_S_S100000x64 : (⟨S_, .f32⟩ : BufTy).Contents (Elt F) → (⟨S100000x64, .f32⟩ : BufTy).Contents (Elt F)),
    binary main_v73 main_call4_v0 main_call4_v1 (cmpf .oge : (⟨S100000x64, .f32⟩ : BufTy).Contents (Elt F) → (⟨S100000x64, .f32⟩ : BufTy).Contents (Elt F) → (⟨S100000x64, .i1⟩ : BufTy).Contents (Elt F)),
    nullary main_call4_cst_0 (constant S_ .f32 0x3C23D70A#32),
    unary main_call4_cst_0 main_call4_v2 (broadcastInDim S100000x64 ![] bcast_S_S100000x64 : (⟨S_, .f32⟩ : BufTy).Contents (Elt F) → (⟨S100000x64, .f32⟩ : BufTy).Contents (Elt F)),
    binary main_call4_v2 main_v73 main_call4_v3 (mulf : (⟨S100000x64, .f32⟩ : BufTy).Contents (Elt F) → (⟨S100000x64, .f32⟩ : BufTy).Contents (Elt F) → (⟨S100000x64, .f32⟩ : BufTy).Contents (Elt F)),
    ternary main_call4_v1 main_v73 main_call4_v3 main_v74 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v59 main_arg7 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (addf : (⟨S100000x64, .f32⟩ : BufTy).Contents (Elt F) → (⟨S100000x64, .f32⟩ : BufTy).Contents (Elt F) → (⟨S100000x64, .f32⟩ : BufTy).Contents (Elt F)),
    nullary main_call5_cst (constant S_ .f32 0x00000000#32),
    unary main_call5_cst main_call5_v0 (broadcastInDim S100000x64 ![] bcast_S_S100000x64 : (⟨S_, .f32⟩ : BufTy).Contents (Elt F) → (⟨S100000x64, .f32⟩ : BufTy).Contents (Elt F)),
    binary main_v78 main_call5_v0 main_call5_v1 (cmpf .oge : (⟨S100000x64, .f32⟩ : BufTy).Contents (Elt F) → (⟨S100000x64, .f32⟩ : BufTy).Contents (Elt F) → (⟨S100000x64, .i1⟩ : BufTy).Contents (Elt F)),
    nullary main_call5_cst_0 (constant S_ .f32 0x3C23D70A#32),
    unary main_call5_cst_0 main_call5_v2 (broadcastInDim S100000x64 ![] bcast_S_S100000x64 : (⟨S_, .f32⟩ : BufTy).Contents (Elt F) → (⟨S100000x64, .f32⟩ : BufTy).Contents (Elt F)),
    binary main_call5_v2 main_v78 main_call5_v3 (mulf : (⟨S100000x64, .f32⟩ : BufTy).Contents (Elt F) → (⟨S100000x64, .f32⟩ : BufTy).Contents (Elt F) → (⟨S100000x64, .f32⟩ : BufTy).Contents (Elt F)),
    ternary main_call5_v1 main_v78 main_call5_v3 main_v79 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v79 main_arg1 main_v80 (addf : (⟨S100000x64, .f32⟩ : BufTy).Contents (Elt F) → (⟨S100000x64, .f32⟩ : BufTy).Contents (Elt F) → (⟨S100000x64, .f32⟩ : BufTy).Contents (Elt F)),
    binary main_v74 main_arg11 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    binary main_v84 main_v80 main_v85 (addf : (⟨S100000x64, .f32⟩ : BufTy).Contents (Elt F) → (⟨S100000x64, .f32⟩ : BufTy).Contents (Elt F) → (⟨S100000x64, .f32⟩ : BufTy).Contents (Elt F)),
    nullary main_call6_cst (constant S_ .f32 0x00000000#32),
    unary main_call6_cst main_call6_v0 (broadcastInDim S100000x64 ![] bcast_S_S100000x64 : (⟨S_, .f32⟩ : BufTy).Contents (Elt F) → (⟨S100000x64, .f32⟩ : BufTy).Contents (Elt F)),
    binary main_v85 main_call6_v0 main_call6_v1 (cmpf .oge : (⟨S100000x64, .f32⟩ : BufTy).Contents (Elt F) → (⟨S100000x64, .f32⟩ : BufTy).Contents (Elt F) → (⟨S100000x64, .i1⟩ : BufTy).Contents (Elt F)),
    nullary main_call6_cst_0 (constant S_ .f32 0x3C23D70A#32),
    unary main_call6_cst_0 main_call6_v2 (broadcastInDim S100000x64 ![] bcast_S_S100000x64 : (⟨S_, .f32⟩ : BufTy).Contents (Elt F) → (⟨S100000x64, .f32⟩ : BufTy).Contents (Elt F)),
    binary main_call6_v2 main_v85 main_call6_v3 (mulf : (⟨S100000x64, .f32⟩ : BufTy).Contents (Elt F) → (⟨S100000x64, .f32⟩ : BufTy).Contents (Elt F) → (⟨S100000x64, .f32⟩ : BufTy).Contents (Elt F)),
    ternary main_call6_v1 main_v85 main_call6_v3 main_v86 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- The entry function is that straight line: its two windows and the three functions unfolded at their calls, both
    sides are one chain of steps once sequencing is reassociated; a callee's operation over a call's typed
    buffers is the plain operation over those buffers, the transport along the buffers' types being the identity. -/
theorem main_eq (c : Dev nD) : main (F := F) c = seq ops := by
  simp only [main, main_part0, main_part1, fn_norm.body, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub ..⟩

/-- On every device, for any float values, from any memory with zero counters: every weakly fair execution of the
    entry function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference program's result, read back: the fold of its operations at the result buffer is the whole
  computation `Cert.Spec.out` of the fourteen arguments' launch contents, and the fold leaves every argument
  buffer as it was (no operation writes one). With the run of the straight line this gives the reference's
  post: the result buffer ends at `Cert.Spec.out` of the arguments, the arguments unchanged.
-/
import proofs.«155893_j10900626998075_1_alg».proof.Proof.RefRun
import proofs.«155893_j10900626998075_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

attribute [local irreducible] Host.scatterAdd Host.gather Host.reduceAdd Host.powf Host.sqrt Host.divf concatenate in
set_option maxRecDepth 16384 in
set_option maxHeartbeats 40000000 in
/-- The fold at the result buffer is `Cert.Spec.out` of the arguments: each operation's result read at its own
    buffer is its function of its operands' contents, at any other buffer what was there; what is left is the
    operations' composed term, which is `Cert.Spec.out`'s body stage by stage. The scatter-add, the gathers, the
    row sum, the power, the square root, the quotient and the stacking are kept folded: the equation never looks
    inside them. -/
theorem out_eq (V : Valuation τ sig (Elt Ideal)) :
    after (ops (F := Ideal)) V (main_v86 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

/-- The buffers the operations write, in order: every buffer of the program but the fourteen arguments, each once. -/
abbrev ops_W : List (Ref sig .tc) :=
  [main_v0, main_v1, main_v2, main_v3, main_cst, main_v4, main_cst_0, main_v5, main_v6, main_v7,
   main_cst_1, main_v8, main_v9, main_cst_2, main_v10, main_v11, main_c, main_v12, main_v13, main_c_3,
   main_v14, main_v15, main_v16, main_v17, main_v18, main_c_4, main_v19, main_v20, main_c_5, main_v21,
   main_v22, main_v23, main_v24, main_v25, main_v26, main_v27, main_call0_v0, main_call0_cst, main_call0_v1, main_call0_v2,
   main_v28, main_cst_6, main_v29, main_v30, main_v31, main_v32, main_v33, main_c_7, main_v34, main_v35,
   main_c_8, main_v36, main_v37, main_v38, main_v39, main_v40, main_v41, main_v42, main_v43, main_cst_9,
   main_v44, main_v45, main_v46, main_call1_cst, main_call1_v0, main_call1_v1, main_call1_cst_0, main_call1_v2, main_call1_v3, main_v47,
   main_v48, main_v49, main_v50, main_v51, main_call2_cst, main_call2_v0, main_call2_v1, main_call2_cst_0, main_call2_v2, main_call2_v3,
   main_v52, main_v53, main_v54, main_v55, main_v56, main_v57, main_v58, main_call3_cst, main_call3_v0, main_call3_v1,
   main_call3_cst_0, main_call3_v2, main_call3_v3, main_v59, main_v60, main_c_10, main_v61, main_v62, main_c_11, main_v63,
   main_v64, main_v65, main_v66, main_v67, main_v68, main_v69, main_v70, main_cst_12, main_v71, main_v72,
   main_v73, main_call4_cst, main_call4_v0, main_call4_v1, main_call4_cst_0, main_call4_v2, main_call4_v3, main_v74, main_v75, main_v76,
   main_v77, main_v78, main_call5_cst, main_call5_v0, main_call5_v1, main_call5_cst_0, main_call5_v2, main_call5_v3, main_v79, main_v80,
   main_v81, main_v82, main_v83, main_v84, main_v85, main_call6_cst, main_call6_v0, main_call6_v1, main_call6_cst_0, main_call6_v2,
   main_call6_v3, main_v86]

/-- An operation whose one written buffer is in a list writes inside that list. -/
theorem writes_mem {W : List (Ref sig .tc)} {op : HloOp τ sig (Elt Ideal)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 16384 in
/-- Every operation writes inside `ops_W`. -/
theorem ops_writes : (ops (F := Ideal)).Forall fun op => op.writes ⊆ (ops_W.map (Proc.devRef (τ := τ) .tc)).toFinset :=
  ⟨writes_mem main_v0 rfl (by decide), writes_mem main_v1 rfl (by decide), writes_mem main_v2 rfl (by decide),
    writes_mem main_v3 rfl (by decide), writes_mem main_cst rfl (by decide), writes_mem main_v4 rfl (by decide),
    writes_mem main_cst_0 rfl (by decide), writes_mem main_v5 rfl (by decide), writes_mem main_v6 rfl (by decide),
    writes_mem main_v7 rfl (by decide), writes_mem main_cst_1 rfl (by decide), writes_mem main_v8 rfl (by decide),
    writes_mem main_v9 rfl (by decide), writes_mem main_cst_2 rfl (by decide), writes_mem main_v10 rfl (by decide),
    writes_mem main_v11 rfl (by decide), writes_mem main_c rfl (by decide), writes_mem main_v12 rfl (by decide),
    writes_mem main_v13 rfl (by decide), writes_mem main_c_3 rfl (by decide), writes_mem main_v14 rfl (by decide),
    writes_mem main_v15 rfl (by decide), writes_mem main_v16 rfl (by decide), writes_mem main_v17 rfl (by decide),
    writes_mem main_v18 rfl (by decide), writes_mem main_c_4 rfl (by decide), writes_mem main_v19 rfl (by decide),
    writes_mem main_v20 rfl (by decide), writes_mem main_c_5 rfl (by decide), writes_mem main_v21 rfl (by decide),
    writes_mem main_v22 rfl (by decide), writes_mem main_v23 rfl (by decide), writes_mem main_v24 rfl (by decide),
    writes_mem main_v25 rfl (by decide), writes_mem main_v26 rfl (by decide), writes_mem main_v27 rfl (by decide),
    writes_mem main_call0_v0 rfl (by decide), writes_mem main_call0_cst rfl (by decide), writes_mem main_call0_v1 rfl (by decide),
    writes_mem main_call0_v2 rfl (by decide), writes_mem main_v28 rfl (by decide), writes_mem main_cst_6 rfl (by decide),
    writes_mem main_v29 rfl (by decide), writes_mem main_v30 rfl (by decide), writes_mem main_v31 rfl (by decide),
    writes_mem main_v32 rfl (by decide), writes_mem main_v33 rfl (by decide), writes_mem main_c_7 rfl (by decide),
    writes_mem main_v34 rfl (by decide), writes_mem main_v35 rfl (by decide), writes_mem main_c_8 rfl (by decide),
    writes_mem main_v36 rfl (by decide), writes_mem main_v37 rfl (by decide), writes_mem main_v38 rfl (by decide),
    writes_mem main_v39 rfl (by decide), writes_mem main_v40 rfl (by decide), writes_mem main_v41 rfl (by decide),
    writes_mem main_v42 rfl (by decide), writes_mem main_v43 rfl (by decide), writes_mem main_cst_9 rfl (by decide),
    writes_mem main_v44 rfl (by decide), writes_mem main_v45 rfl (by decide), writes_mem main_v46 rfl (by decide),
    writes_mem main_call1_cst rfl (by decide), writes_mem main_call1_v0 rfl (by decide), writes_mem main_call1_v1 rfl (by decide),
    writes_mem main_call1_cst_0 rfl (by decide), writes_mem main_call1_v2 rfl (by decide), writes_mem main_call1_v3 rfl (by decide),
    writes_mem main_v47 rfl (by decide), writes_mem main_v48 rfl (by decide), writes_mem main_v49 rfl (by decide),
    writes_mem main_v50 rfl (by decide), writes_mem main_v51 rfl (by decide), writes_mem main_call2_cst rfl (by decide),
    writes_mem main_call2_v0 rfl (by decide), writes_mem main_call2_v1 rfl (by decide), writes_mem main_call2_cst_0 rfl (by decide),
    writes_mem main_call2_v2 rfl (by decide), writes_mem main_call2_v3 rfl (by decide), writes_mem main_v52 rfl (by decide),
    writes_mem main_v53 rfl (by decide), writes_mem main_v54 rfl (by decide), writes_mem main_v55 rfl (by decide),
    writes_mem main_v56 rfl (by decide), writes_mem main_v57 rfl (by decide), writes_mem main_v58 rfl (by decide),
    writes_mem main_call3_cst rfl (by decide), writes_mem main_call3_v0 rfl (by decide), writes_mem main_call3_v1 rfl (by decide),
    writes_mem main_call3_cst_0 rfl (by decide), writes_mem main_call3_v2 rfl (by decide), writes_mem main_call3_v3 rfl (by decide),
    writes_mem main_v59 rfl (by decide), writes_mem main_v60 rfl (by decide), writes_mem main_c_10 rfl (by decide),
    writes_mem main_v61 rfl (by decide), writes_mem main_v62 rfl (by decide), writes_mem main_c_11 rfl (by decide),
    writes_mem main_v63 rfl (by decide), writes_mem main_v64 rfl (by decide), writes_mem main_v65 rfl (by decide),
    writes_mem main_v66 rfl (by decide), writes_mem main_v67 rfl (by decide), writes_mem main_v68 rfl (by decide),
    writes_mem main_v69 rfl (by decide), writes_mem main_v70 rfl (by decide), writes_mem main_cst_12 rfl (by decide),
    writes_mem main_v71 rfl (by decide), writes_mem main_v72 rfl (by decide), writes_mem main_v73 rfl (by decide),
    writes_mem main_call4_cst rfl (by decide), writes_mem main_call4_v0 rfl (by decide), writes_mem main_call4_v1 rfl (by decide),
    writes_mem main_call4_cst_0 rfl (by decide), writes_mem main_call4_v2 rfl (by decide), writes_mem main_call4_v3 rfl (by decide),
    writes_mem main_v74 rfl (by decide), writes_mem main_v75 rfl (by decide), writes_mem main_v76 rfl (by decide),
    writes_mem main_v77 rfl (by decide), writes_mem main_v78 rfl (by decide), writes_mem main_call5_cst rfl (by decide),
    writes_mem main_call5_v0 rfl (by decide), writes_mem main_call5_v1 rfl (by decide), writes_mem main_call5_cst_0 rfl (by decide),
    writes_mem main_call5_v2 rfl (by decide), writes_mem main_call5_v3 rfl (by decide), writes_mem main_v79 rfl (by decide),
    writes_mem main_v80 rfl (by decide), writes_mem main_v81 rfl (by decide), writes_mem main_v82 rfl (by decide),
    writes_mem main_v83 rfl (by decide), writes_mem main_v84 rfl (by decide), writes_mem main_v85 rfl (by decide),
    writes_mem main_call6_cst rfl (by decide), writes_mem main_call6_v0 rfl (by decide), writes_mem main_call6_v1 rfl (by decide),
    writes_mem main_call6_cst_0 rfl (by decide), writes_mem main_call6_v2 rfl (by decide), writes_mem main_call6_v3 rfl (by decide),
    writes_mem main_v86 rfl (by decide)⟩

theorem arg0_eq (V : Valuation τ sig (Elt Ideal)) :
    after (ops (F := Ideal)) V (main_arg0 : DevRef τ sig) = V (main_arg0 : DevRef τ sig) :=
  after_of_writes_sub ops V ops_writes (by decide)

theorem arg1_eq (V : Valuation τ sig (Elt Ideal)) :
    after (ops (F := Ideal)) V (main_arg1 : DevRef τ sig) = V (main_arg1 : DevRef τ sig) :=
  after_of_writes_sub ops V ops_writes (by decide)

theorem arg2_eq (V : Valuation τ sig (Elt Ideal)) :
    after (ops (F := Ideal)) V (main_arg2 : DevRef τ sig) = V (main_arg2 : DevRef τ sig) :=
  after_of_writes_sub ops V ops_writes (by decide)

theorem arg3_eq (V : Valuation τ sig (Elt Ideal)) :
    after (ops (F := Ideal)) V (main_arg3 : DevRef τ sig) = V (main_arg3 : DevRef τ sig) :=
  after_of_writes_sub ops V ops_writes (by decide)

theorem arg4_eq (V : Valuation τ sig (Elt Ideal)) :
    after (ops (F := Ideal)) V (main_arg4 : DevRef τ sig) = V (main_arg4 : DevRef τ sig) :=
  after_of_writes_sub ops V ops_writes (by decide)

theorem arg5_eq (V : Valuation τ sig (Elt Ideal)) :
    after (ops (F := Ideal)) V (main_arg5 : DevRef τ sig) = V (main_arg5 : DevRef τ sig) :=
  after_of_writes_sub ops V ops_writes (by decide)

theorem arg6_eq (V : Valuation τ sig (Elt Ideal)) :
    after (ops (F := Ideal)) V (main_arg6 : DevRef τ sig) = V (main_arg6 : DevRef τ sig) :=
  after_of_writes_sub ops V ops_writes (by decide)

theorem arg7_eq (V : Valuation τ sig (Elt Ideal)) :
    after (ops (F := Ideal)) V (main_arg7 : DevRef τ sig) = V (main_arg7 : DevRef τ sig) :=
  after_of_writes_sub ops V ops_writes (by decide)

theorem arg8_eq (V : Valuation τ sig (Elt Ideal)) :
    after (ops (F := Ideal)) V (main_arg8 : DevRef τ sig) = V (main_arg8 : DevRef τ sig) :=
  after_of_writes_sub ops V ops_writes (by decide)

theorem arg9_eq (V : Valuation τ sig (Elt Ideal)) :
    after (ops (F := Ideal)) V (main_arg9 : DevRef τ sig) = V (main_arg9 : DevRef τ sig) :=
  after_of_writes_sub ops V ops_writes (by decide)

theorem arg10_eq (V : Valuation τ sig (Elt Ideal)) :
    after (ops (F := Ideal)) V (main_arg10 : DevRef τ sig) = V (main_arg10 : DevRef τ sig) :=
  after_of_writes_sub ops V ops_writes (by decide)

theorem arg11_eq (V : Valuation τ sig (Elt Ideal)) :
    after (ops (F := Ideal)) V (main_arg11 : DevRef τ sig) = V (main_arg11 : DevRef τ sig) :=
  after_of_writes_sub ops V ops_writes (by decide)

theorem arg12_eq (V : Valuation τ sig (Elt Ideal)) :
    after (ops (F := Ideal)) V (main_arg12 : DevRef τ sig) = V (main_arg12 : DevRef τ sig) :=
  after_of_writes_sub ops V ops_writes (by decide)

theorem arg13_eq (V : Valuation τ sig (Elt Ideal)) :
    after (ops (F := Ideal)) V (main_arg13 : DevRef τ sig) = V (main_arg13 : DevRef τ sig) :=
  after_of_writes_sub ops V ops_writes (by decide)

/-- On every device, at the extended reals, from any memory with zero counters: every weakly fair execution of the
    reference terminates with the result buffer at `Cert.Spec.out` of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v86).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.RefRun

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.PwCommon.lean ====
/-
  Small facts shared by the readings of the tiled regions' arithmetic at an index: the slope-0.01 leaky rectifier as a
  function of one extended real, and how each program reads it at an entry; a bias row of 64 entries laid against every
  row, read at an entry, in each program's spelling; and the two programs' products read at an entry as sums over the
  contracted column.
-/
import proofs.«155893_j10900626998075_1_alg».proof.Proof.Gen.KernelIdeal.Skeleton
import proofs.«155893_j10900626998075_1_alg».proof.Proof.Spec
import proofs.«155893_j10900626998075_1_alg».proof.Proof.LibMatmul
import Idealize.ShloMosaic.Lib.ValueLayout
import Idealize.ShloMosaic.Lib.Pipeline.Value

noncomputable section

open scoped BigOperators

namespace Cert.Pointwise

open Idealize.ShloMosaic Idealize.ShloMosaic.ValueIdx

/-- The leaky rectifier of one extended real: y where y ≥ 0, slope · y elsewhere, slope the f32 word 0x3C23D70A. -/
def leakyS (y : Ideal .f32) : Ideal .f32 :=
  Scalar.select (FloatOps.cmpf .oge y (Ideal.ofBits .f32 0x00000000#32)) y (Ideal.ofBits .f32 0x3C23D70A#32 * y)

/-- The tiled regions' spelling of the rectifier (compare with a splat of zero, multiply by a splat of the slope,
    select), read at an index. -/
theorem kleaky_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = leakyS (v i) := rfl

/-- The specification's rectifier read at an index. -/
theorem leaky_apply (x : Cert.Spec.Arr Cert.ReferenceIdeal.S100000x64) (i : Cert.ReferenceIdeal.S100000x64.Idx) :
    Cert.Spec.leaky x i = leakyS (x i) := rfl

/-- The tiled regions' bias row (a [64] vector cast to [1, 64] and broadcast down 2000 rows) at (p, q) is entry q. -/
theorem kbias_apply (b : Vec Ideal Cert.KernelIdeal.S64 .f32) (h1 : Cert.KernelIdeal.S64.ShapeCasts Cert.KernelIdeal.S1x64)
    (h2 : Cert.KernelIdeal.S1x64.Broadcasts Cert.KernelIdeal.S2000x64) (p : Fin 2000) (q : Fin 64) :
    broadcastTo Cert.KernelIdeal.S2000x64 (shapeCast Cert.KernelIdeal.S1x64 b h1) h2 (ix2 p q) = b (ix1 q) :=
  (broadcastTo_1b_ab_apply _ _ p q).trans (shapeCast_a_1a_apply b _ 0 q)

/-- The specification's bias rows at (r, q) are entry q of the bias. -/
theorem biasRows_apply (b : Cert.Spec.Arr Cert.ReferenceIdeal.S64) (r : Fin 100000) (q : Fin 64) :
    Cert.Spec.biasRows b (ix2 r q) = b (ix1 q) := by
  unfold Cert.Spec.biasRows
  refine (broadcastInDim_apply _ _ _ (ix2 r q) (ix2 (0 : Fin 1) q) fun ax => ?_).trans ?_
  · match ax with
    | ⟨0, _⟩ =>
      show (0 : ℕ) = if (1 : ℕ) = 1 then 0 else r.val
      rw [if_pos rfl]
    | ⟨1, _⟩ =>
      show q.val = if (64 : ℕ) = 1 then 0 else q.val
      rw [if_neg (by decide)]
  · refine broadcastInDim_apply _ _ _ (ix2 (0 : Fin 1) q) (ix1 q) fun ax => ?_
    match ax with
    | ⟨0, _⟩ =>
      show q.val = if (64 : ℕ) = 1 then 0 else q.val
      rw [if_neg (by decide)]

/-- The specification's product of a 64-column array by a [64, 64] matrix at (r, q): the sum over the column j. -/
theorem proj64_apply (x : Cert.Spec.Arr Cert.ReferenceIdeal.S100000x64) (w : Cert.Spec.Arr Cert.ReferenceIdeal.S64x64)
    (r : Fin 100000) (q : Fin 64) :
    Cert.Spec.proj64 x w (ix2 r q) = ∑ j : Fin 64, x (ix2 r j) * w (ix2 j q) :=
  dotGeneral_ix2 Cert.ReferenceIdeal.dot_S100000x64_S64x64_S100000x64_1_0_0_1_n_n rfl rfl rfl rfl rfl rfl none .single x w r q

/-- The specification's product of a 256-column array by a [256, 64] matrix at (r, q): the sum over the column j. -/
theorem proj256_apply (x : Cert.Spec.Arr Cert.ReferenceIdeal.S100000x256) (w : Cert.Spec.Arr Cert.ReferenceIdeal.S256x64)
    (r : Fin 100000) (q : Fin 64) :
    Cert.Spec.proj256 x w (ix2 r q) = ∑ j : Fin 256, x (ix2 r j) * w (ix2 j q) :=
  dotGeneral_ix2 Cert.ReferenceIdeal.dot_S100000x256_S256x64_S100000x64_1_0_0_1_n_n rfl rfl rfl rfl rfl rfl none .single x w r q

/-- The matrix unit's product of a [2000, 64] block by a [64, 64] matrix into the zero accumulator at (p, q). -/
theorem kmatmul64_apply {φ₁ φ₂ : FTy} (x : FVec Ideal Cert.KernelIdeal.S2000x64 φ₁) (w : FVec Ideal Cert.KernelIdeal.S64x64 φ₂)
    (p : Fin 2000) (q : Fin 64) :
    matmul Cert.KernelIdeal.dot_S2000x64_S64x64_S2000x64_1_0_0_1_n_n none x w
        (constant Cert.KernelIdeal.S2000x64 .f32 0x00000000#32) (ix2 p q)
      = ∑ j : Fin 64, x (ix2 p j) * w (ix2 j q) :=
  matmul_zero_ix2 Cert.KernelIdeal.dot_S2000x64_S64x64_S2000x64_1_0_0_1_n_n rfl rfl rfl rfl rfl rfl none x w p q

/-- The matrix unit's product of a [2000, 256] block by a [256, 64] matrix into the zero accumulator at (p, q). -/
theorem kmatmul256_apply {φ₁ φ₂ : FTy} (x : FVec Ideal Cert.KernelIdeal.S2000x256 φ₁) (w : FVec Ideal Cert.KernelIdeal.S256x64 φ₂)
    (p : Fin 2000) (q : Fin 64) :
    matmul Cert.KernelIdeal.dot_S2000x256_S256x64_S2000x64_1_0_0_1_n_n none x w
        (constant Cert.KernelIdeal.S2000x64 .f32 0x00000000#32) (ix2 p q)
      = ∑ j : Fin 256, x (ix2 p j) * w (ix2 j q) :=
  matmul_zero_ix2 Cert.KernelIdeal.dot_S2000x256_S256x64_S2000x64_1_0_0_1_n_n rfl rfl rfl rfl rfl rfl none x w p q

end Cert.Pointwise

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.PwNormalize.lean ====
/-
  The normalizing region's arithmetic read at an index. On a [2000, 256] block x of rows that starts at array row r0 the
  value stored at (p, q) is x(p, q) divided by max(√(Σₖ x(p, k)²), ε): the lane sum over the 256 columns of row p is a
  plain sum, and the per-row value laid back against the row's 256 entries is that row's value. The specification's
  normalize stage at (r0 + p, q) is the same expression in the array's entries; the host's sum starts from a zero.
-/
import proofs.«155893_j10900626998075_1_alg».proof.Proof.PwCommon
import proofs.«155893_j10900626998075_1_alg».proof.Proof.LibColumns
import proofs.«155893_j10900626998075_1_alg».proof.Proof.LibHostColumns
import Idealize.ShloMosaic.PureOps.Ideal.Laws

noncomputable section

open scoped BigOperators

namespace Cert.Pointwise

open Idealize.ShloMosaic Idealize.ShloMosaic.ValueIdx

/-- One entry x divided by max(√s, ε), ε the f32 word 0x2B8CBCCC, s the row's sum of squares. -/
def normS (x s : Ideal .f32) : Ideal .f32 :=
  Idealize.ShloMosaic.Ideal.div x (max (Idealize.ShloMosaic.Ideal.sqrt s) (Idealize.ShloMosaic.Ideal.ofBits .f32 0x2B8CBCCC#32))

/-- The vector unit's square root at an index. -/
theorem ksqrt_apply {s : Shape} (v : FVec Ideal s .f32) (i : s.Idx) : sqrt v i = Idealize.ShloMosaic.Ideal.sqrt (v i) := rfl
/-- The host's square root at an index. -/
theorem hsqrt_apply {s : Shape} (v : FVec Ideal s .f32) (i : s.Idx) : Host.sqrt (F := Ideal) v i = Idealize.ShloMosaic.Ideal.sqrt (v i) := rfl
/-- The host's quotient at an index. -/
theorem hdivf_apply {s : Shape} (a b : FVec Ideal s .f32) (i : s.Idx) :
    Host.divf (F := Ideal) a b i = Idealize.ShloMosaic.Ideal.div (a i) (b i) := rfl
/-- The host's sum at an index: the exact sum from the initial value's one element. -/
theorem hreduceAdd_apply {s t u : Shape} {axes : List (Fin s.rank)} (x : FVec Ideal s .f32) (init : u.Idx → Ideal .f32)
    (h : s.ReducesTo axes t) (hu : 0 < u.numel) (j : t.Idx) :
    Host.reduceAdd (F := Ideal) x init h hu j = Idealize.ShloMosaic.Ideal.hostReduceAdd h x (init (Shape.Idx.first hu)) j := rfl

/-- The region's stored value at (p, q), as one expression in the entries of the block it loaded. -/
theorem k0_pay1_apply (x0 : Vec Ideal Cert.KernelIdeal.S2000x256 .f32) (p : Fin 2000) (q : Fin 256) :
    Cert.KernelIdeal.Gen.k0_pay1 (F := Ideal) x0 (ix2 p q)
      = normS (x0 (ix2 p q)) (∑ k : Fin 256, x0 (ix2 p k) * x0 (ix2 p k)) := by
  unfold Cert.KernelIdeal.Gen.k0_pay1 normS
  refine (divf_apply _ _ _).trans (congrArg₂ Idealize.ShloMosaic.Ideal.div (congrFun (shapeCast_self x0 _) _) ?_)
  refine (broadcastTo_a1_ab_apply _ _ p q).trans ?_
  refine (maximumf_apply _ _ _).trans (congrArg₂ max ?_ rfl)
  refine (ksqrt_apply _ _).trans (congrArg Idealize.ShloMosaic.Ideal.sqrt ?_)
  refine (shapeCast_a_a1_apply _ _ p 0).trans ?_
  refine (Idealize.ShloMosaic.Ideal.multiReduction_add_single _ _ _ _ _ (ix1 p)).trans ?_
  refine Finset.sum_congr rfl fun k _ => ?_
  refine (congrArg _ (lift_ix1_columns _ p k)).trans ?_
  refine (mulf_apply _ _ _).trans ?_
  exact congrArg₂ (· * ·) (congrFun (shapeCast_self x0 _) _) (congrFun (shapeCast_self x0 _) _)

/-- The specification's normalize stage at (r, q), as the same expression in the array's entries. -/
theorem rowNormalize_apply (X : Cert.Spec.Arr Cert.ReferenceIdeal.S100000x256) (r : Fin 100000) (q : Fin 256) :
    Cert.Spec.rowNormalize X (ix2 r q)
      = normS (X (ix2 r q)) (∑ k : Fin 256, X (ix2 r k) * X (ix2 r k)) := by
  have hred : Cert.ReferenceIdeal.S100000x256.Reduces [1] Cert.ReferenceIdeal.S100000 := by decide
  unfold Cert.Spec.rowNormalize normS
  refine (hdivf_apply _ _ _).trans (congrArg (Idealize.ShloMosaic.Ideal.div (X (ix2 r q))) ?_)
  refine (broadcastInDim_a1_ab_apply _ _ r q).trans ?_
  refine (maximumf_apply _ _ _).trans (congrArg₂ max ?_ rfl)
  refine (hsqrt_apply _ _).trans (congrArg Idealize.ShloMosaic.Ideal.sqrt ?_)
  refine (broadcastInDim_a_a1_apply _ _ r 0).trans ?_
  refine (hreduceAdd_apply _ _ _ _ _).trans ?_
  refine (Idealize.ShloMosaic.Ideal.hostReduceAdd_single _ hred _ _ (ix1 r)).trans ?_
  refine (congrArg₂ (· + ·) Idealize.ShloMosaic.Ideal.ofBits_zero_f32 (Finset.sum_congr rfl fun k _ => ?_)).trans (zero_add _)
  exact (congrArg _ (lift_ix1_columns hred r k)).trans (mulf_apply _ _ _)

/-- The stored value against the normalize stage: block row p of the tile at array row r0 is array row r0 + p. -/
theorem normalize_at (X : Cert.Spec.Arr Cert.ReferenceIdeal.S100000x256) (x0 : Vec Ideal Cert.KernelIdeal.S2000x256 .f32)
    (r0 : ℕ) (hr : r0 + 2000 ≤ 100000)
    (hx : ∀ (p : Fin 2000) (j : Fin 256), x0 (ix2 p j) = X (ix2 (⟨r0 + p.val, by omega⟩ : Fin 100000) j))
    (p : Fin 2000) (q : Fin 256) :
    Cert.KernelIdeal.Gen.k0_pay1 (F := Ideal) x0 (ix2 p q)
      = Cert.Spec.rowNormalize X (ix2 (⟨r0 + p.val, by omega⟩ : Fin 100000) q) := by
  refine (k0_pay1_apply x0 p q).trans (Eq.trans ?_ (rowNormalize_apply X _ q).symm)
  rw [hx p q]
  refine congrArg (normS _) (Finset.sum_congr rfl fun k _ => ?_)
  rw [hx p k]

end Cert.Pointwise

end
-- ==== Proof.PwAB256.lean ====
/-
  The projecting region of the first layer read at an index. On a [2000, 256] block x of rows that starts at array row r0 the
  region stores two values: x · W by the matrix unit into a zero accumulator, which at (p, q) is Σⱼ x(p, j) · W(j, q);
  and leaky(x · L + bias) + id block, which at (p, q) is leaky(Σⱼ x(p, j) · L(j, q) + bias(q)) + id(p, q). The change of
  float format in front of the matrix unit is the identity on extended reals. The specification's projection and x̂ stages
  at (r0 + p, q) are the same expressions in the arrays' entries.
-/
import proofs.«155893_j10900626998075_1_alg».proof.Proof.PwCommon

noncomputable section

open scoped BigOperators

namespace Cert.Pointwise

open Idealize.ShloMosaic Idealize.ShloMosaic.ValueIdx

/-- The block after its change of float format, at an index: the block itself. -/
theorem k1_pay1_apply (x0 : Vec Ideal Cert.KernelIdeal.S2000x256 .f32) (i : Cert.KernelIdeal.S2000x256.Idx) :
    Cert.KernelIdeal.Gen.k1_pay1 (F := Ideal) x0 i = x0 i := by
  unfold Cert.KernelIdeal.Gen.k1_pay1
  exact congrFun (shapeCast_self x0 _) i

/-- The stored product at (p, q), as a sum over the contracted column. -/
theorem k1_pay2_apply (x0 : Vec Ideal Cert.KernelIdeal.S2000x256 .f32) (w : Vec Ideal Cert.KernelIdeal.S256x64 .f32) (p : Fin 2000) (q : Fin 64) :
    Cert.KernelIdeal.Gen.k1_pay2 (F := Ideal) x0 w (ix2 p q) = ∑ j : Fin 256, x0 (ix2 p j) * w (ix2 j q) := by
  unfold Cert.KernelIdeal.Gen.k1_pay2
  refine (kmatmul256_apply _ _ p q).trans (Finset.sum_congr rfl fun j _ => congrArg₂ (· * ·) ?_ rfl)
  exact k1_pay1_apply x0 _

/-- The stored x̂ at (p, q), as one expression in the entries of what the region loaded. -/
theorem k1_pay3_apply (x0 : Vec Ideal Cert.KernelIdeal.S2000x256 .f32) (l : Vec Ideal Cert.KernelIdeal.S256x64 .f32) (b : Vec Ideal Cert.KernelIdeal.S64 .f32)
    (idb : Vec Ideal Cert.KernelIdeal.S2000x64 .f32) (p : Fin 2000) (q : Fin 64) :
    Cert.KernelIdeal.Gen.k1_pay3 (F := Ideal) x0 l b idb (ix2 p q)
      = leakyS ((∑ j : Fin 256, x0 (ix2 p j) * l (ix2 j q)) + b (ix1 q)) + idb (ix2 p q) := by
  unfold Cert.KernelIdeal.Gen.k1_pay3
  refine (addf_apply _ _ _).trans (congrArg₂ (· + ·) ?_ rfl)
  refine (kleaky_apply _ _).trans (congrArg leakyS ?_)
  refine (addf_apply _ _ _).trans (congrArg₂ (· + ·) ?_ (kbias_apply b _ _ p q))
  refine (kmatmul256_apply _ _ p q).trans (Finset.sum_congr rfl fun j _ => congrArg₂ (· * ·) ?_ rfl)
  exact k1_pay1_apply x0 _

/-- The specification's x̂ stage at (r, q), as the same expression in the arrays' entries. -/
theorem hat256_apply (X : Cert.Spec.Arr Cert.ReferenceIdeal.S100000x256) (Lm : Cert.Spec.Arr Cert.ReferenceIdeal.S256x64) (B : Cert.Spec.Arr Cert.ReferenceIdeal.S64)
    (ID : Cert.Spec.Arr Cert.ReferenceIdeal.S100000x64) (r : Fin 100000) (q : Fin 64) :
    Cert.Spec.hat256 X Lm B ID (ix2 r q)
      = leakyS ((∑ j : Fin 256, X (ix2 r j) * Lm (ix2 j q)) + B (ix1 q)) + ID (ix2 r q) := by
  unfold Cert.Spec.hat256
  refine (addf_apply _ _ _).trans (congrArg₂ (· + ·) ?_ rfl)
  refine (leaky_apply _ _).trans (congrArg leakyS ?_)
  exact (addf_apply _ _ _).trans (congrArg₂ (· + ·) (proj256_apply _ _ r q) (biasRows_apply B r q))

/-- The stored product against the projection stage: block row p of the tile at array row r0 is array row r0 + p. -/
theorem proj256_at (X : Cert.Spec.Arr Cert.ReferenceIdeal.S100000x256) (W : Cert.Spec.Arr Cert.ReferenceIdeal.S256x64)
    (x0 : Vec Ideal Cert.KernelIdeal.S2000x256 .f32) (w : Vec Ideal Cert.KernelIdeal.S256x64 .f32)
    (r0 : ℕ) (hr : r0 + 2000 ≤ 100000)
    (hx : ∀ (p : Fin 2000) (j : Fin 256), x0 (ix2 p j) = X (ix2 (⟨r0 + p.val, by omega⟩ : Fin 100000) j))
    (hw : ∀ (j : Fin 256) (q : Fin 64), w (ix2 j q) = W (ix2 j q))
    (p : Fin 2000) (q : Fin 64) :
    Cert.KernelIdeal.Gen.k1_pay2 (F := Ideal) x0 w (ix2 p q)
      = Cert.Spec.proj256 X W (ix2 (⟨r0 + p.val, by omega⟩ : Fin 100000) q) := by
  refine (k1_pay2_apply x0 w p q).trans (Eq.trans ?_ (proj256_apply X W _ q).symm)
  refine Finset.sum_congr rfl fun j _ => ?_
  rw [hx p j, hw j q]

/-- The stored x̂ against the x̂ stage: block row p of the tile at array row r0 is array row r0 + p. -/
theorem hat256_at (X : Cert.Spec.Arr Cert.ReferenceIdeal.S100000x256) (Lm : Cert.Spec.Arr Cert.ReferenceIdeal.S256x64) (B : Cert.Spec.Arr Cert.ReferenceIdeal.S64)
    (ID : Cert.Spec.Arr Cert.ReferenceIdeal.S100000x64)
    (x0 : Vec Ideal Cert.KernelIdeal.S2000x256 .f32) (l : Vec Ideal Cert.KernelIdeal.S256x64 .f32) (b : Vec Ideal Cert.KernelIdeal.S64 .f32) (idb : Vec Ideal Cert.KernelIdeal.S2000x64 .f32)
    (r0 : ℕ) (hr : r0 + 2000 ≤ 100000)
    (hx : ∀ (p : Fin 2000) (j : Fin 256), x0 (ix2 p j) = X (ix2 (⟨r0 + p.val, by omega⟩ : Fin 100000) j))
    (hl : ∀ (j : Fin 256) (q : Fin 64), l (ix2 j q) = Lm (ix2 j q)) (hb : ∀ q : Fin 64, b (ix1 q) = B (ix1 q))
    (hid : ∀ (p : Fin 2000) (q : Fin 64), idb (ix2 p q) = ID (ix2 (⟨r0 + p.val, by omega⟩ : Fin 100000) q))
    (p : Fin 2000) (q : Fin 64) :
    Cert.KernelIdeal.Gen.k1_pay3 (F := Ideal) x0 l b idb (ix2 p q)
      = Cert.Spec.hat256 X Lm B ID (ix2 (⟨r0 + p.val, by omega⟩ : Fin 100000) q) := by
  refine (k1_pay3_apply x0 l b idb p q).trans (Eq.trans ?_ (hat256_apply X Lm B ID _ q).symm)
  rw [hb q, hid p q]
  refine congrArg (fun s => leakyS (s + B (ix1 q)) + ID (ix2 (⟨r0 + p.val, by omega⟩ : Fin 100000) q))
    (Finset.sum_congr rfl fun j _ => ?_)
  rw [hx p j, hl j q]

end Cert.Pointwise

end
-- ==== Proof.PwAB64.lean ====
/-
  The projecting region of the second layer read at an index. On a [2000, 64] block x of rows that starts at array row r0 the
  region stores two values: x · W by the matrix unit into a zero accumulator, which at (p, q) is Σⱼ x(p, j) · W(j, q);
  and leaky(x · L + bias) + id block, which at (p, q) is leaky(Σⱼ x(p, j) · L(j, q) + bias(q)) + id(p, q). The change of
  float format in front of the matrix unit is the identity on extended reals. The specification's projection and x̂ stages
  at (r0 + p, q) are the same expressions in the arrays' entries.
-/
import proofs.«155893_j10900626998075_1_alg».proof.Proof.PwCommon

noncomputable section

open scoped BigOperators

namespace Cert.Pointwise

open Idealize.ShloMosaic Idealize.ShloMosaic.ValueIdx

/-- The block after its change of float format, at an index: the block itself. -/
theorem k3_pay1_apply (x0 : Vec Ideal Cert.KernelIdeal.S2000x64 .f32) (i : Cert.KernelIdeal.S2000x64.Idx) :
    Cert.KernelIdeal.Gen.k3_pay1 (F := Ideal) x0 i = x0 i := by
  unfold Cert.KernelIdeal.Gen.k3_pay1
  exact congrFun (shapeCast_self x0 _) i

/-- The stored product at (p, q), as a sum over the contracted column. -/
theorem k3_pay2_apply (x0 : Vec Ideal Cert.KernelIdeal.S2000x64 .f32) (w : Vec Ideal Cert.KernelIdeal.S64x64 .f32) (p : Fin 2000) (q : Fin 64) :
    Cert.KernelIdeal.Gen.k3_pay2 (F := Ideal) x0 w (ix2 p q) = ∑ j : Fin 64, x0 (ix2 p j) * w (ix2 j q) := by
  unfold Cert.KernelIdeal.Gen.k3_pay2
  refine (kmatmul64_apply _ _ p q).trans (Finset.sum_congr rfl fun j _ => congrArg₂ (· * ·) ?_ rfl)
  exact k3_pay1_apply x0 _

/-- The stored x̂ at (p, q), as one expression in the entries of what the region loaded. -/
theorem k3_pay3_apply (x0 : Vec Ideal Cert.KernelIdeal.S2000x64 .f32) (l : Vec Ideal Cert.KernelIdeal.S64x64 .f32) (b : Vec Ideal Cert.KernelIdeal.S64 .f32)
    (idb : Vec Ideal Cert.KernelIdeal.S2000x64 .f32) (p : Fin 2000) (q : Fin 64) :
    Cert.KernelIdeal.Gen.k3_pay3 (F := Ideal) x0 l b idb (ix2 p q)
      = leakyS ((∑ j : Fin 64, x0 (ix2 p j) * l (ix2 j q)) + b (ix1 q)) + idb (ix2 p q) := by
  unfold Cert.KernelIdeal.Gen.k3_pay3
  refine (addf_apply _ _ _).trans (congrArg₂ (· + ·) ?_ rfl)
  refine (kleaky_apply _ _).trans (congrArg leakyS ?_)
  refine (addf_apply _ _ _).trans (congrArg₂ (· + ·) ?_ (kbias_apply b _ _ p q))
  refine (kmatmul64_apply _ _ p q).trans (Finset.sum_congr rfl fun j _ => congrArg₂ (· * ·) ?_ rfl)
  exact k3_pay1_apply x0 _

/-- The specification's x̂ stage at (r, q), as the same expression in the arrays' entries. -/
theorem hat64_apply (X : Cert.Spec.Arr Cert.ReferenceIdeal.S100000x64) (Lm : Cert.Spec.Arr Cert.ReferenceIdeal.S64x64) (B : Cert.Spec.Arr Cert.ReferenceIdeal.S64)
    (ID : Cert.Spec.Arr Cert.ReferenceIdeal.S100000x64) (r : Fin 100000) (q : Fin 64) :
    Cert.Spec.hat64 X Lm B ID (ix2 r q)
      = leakyS ((∑ j : Fin 64, X (ix2 r j) * Lm (ix2 j q)) + B (ix1 q)) + ID (ix2 r q) := by
  unfold Cert.Spec.hat64
  refine (addf_apply _ _ _).trans (congrArg₂ (· + ·) ?_ rfl)
  refine (leaky_apply _ _).trans (congrArg leakyS ?_)
  exact (addf_apply _ _ _).trans (congrArg₂ (· + ·) (proj64_apply _ _ r q) (biasRows_apply B r q))

/-- The stored product against the projection stage: block row p of the tile at array row r0 is array row r0 + p. -/
theorem proj64_at (X : Cert.Spec.Arr Cert.ReferenceIdeal.S100000x64) (W : Cert.Spec.Arr Cert.ReferenceIdeal.S64x64)
    (x0 : Vec Ideal Cert.KernelIdeal.S2000x64 .f32) (w : Vec Ideal Cert.KernelIdeal.S64x64 .f32)
    (r0 : ℕ) (hr : r0 + 2000 ≤ 100000)
    (hx : ∀ (p : Fin 2000) (j : Fin 64), x0 (ix2 p j) = X (ix2 (⟨r0 + p.val, by omega⟩ : Fin 100000) j))
    (hw : ∀ (j : Fin 64) (q : Fin 64), w (ix2 j q) = W (ix2 j q))
    (p : Fin 2000) (q : Fin 64) :
    Cert.KernelIdeal.Gen.k3_pay2 (F := Ideal) x0 w (ix2 p q)
      = Cert.Spec.proj64 X W (ix2 (⟨r0 + p.val, by omega⟩ : Fin 100000) q) := by
  refine (k3_pay2_apply x0 w p q).trans (Eq.trans ?_ (proj64_apply X W _ q).symm)
  refine Finset.sum_congr rfl fun j _ => ?_
  rw [hx p j, hw j q]

/-- The stored x̂ against the x̂ stage: block row p of the tile at array row r0 is array row r0 + p. -/
theorem hat64_at (X : Cert.Spec.Arr Cert.ReferenceIdeal.S100000x64) (Lm : Cert.Spec.Arr Cert.ReferenceIdeal.S64x64) (B : Cert.Spec.Arr Cert.ReferenceIdeal.S64)
    (ID : Cert.Spec.Arr Cert.ReferenceIdeal.S100000x64)
    (x0 : Vec Ideal Cert.KernelIdeal.S2000x64 .f32) (l : Vec Ideal Cert.KernelIdeal.S64x64 .f32) (b : Vec Ideal Cert.KernelIdeal.S64 .f32) (idb : Vec Ideal Cert.KernelIdeal.S2000x64 .f32)
    (r0 : ℕ) (hr : r0 + 2000 ≤ 100000)
    (hx : ∀ (p : Fin 2000) (j : Fin 64), x0 (ix2 p j) = X (ix2 (⟨r0 + p.val, by omega⟩ : Fin 100000) j))
    (hl : ∀ (j : Fin 64) (q : Fin 64), l (ix2 j q) = Lm (ix2 j q)) (hb : ∀ q : Fin 64, b (ix1 q) = B (ix1 q))
    (hid : ∀ (p : Fin 2000) (q : Fin 64), idb (ix2 p q) = ID (ix2 (⟨r0 + p.val, by omega⟩ : Fin 100000) q))
    (p : Fin 2000) (q : Fin 64) :
    Cert.KernelIdeal.Gen.k3_pay3 (F := Ideal) x0 l b idb (ix2 p q)
      = Cert.Spec.hat64 X Lm B ID (ix2 (⟨r0 + p.val, by omega⟩ : Fin 100000) q) := by
  refine (k3_pay3_apply x0 l b idb p q).trans (Eq.trans ?_ (hat64_apply X Lm B ID _ q).symm)
  rw [hb q, hid p q]
  refine congrArg (fun s => leakyS (s + B (ix1 q)) + ID (ix2 (⟨r0 + p.val, by omega⟩ : Fin 100000) q))
    (Finset.sum_congr rfl fun j _ => ?_)
  rw [hx p j, hl j q]

end Cert.Pointwise

end
-- ==== Proof.PwCombine.lean ====
/-
  The layer-closing region's arithmetic read at an index. On a [2000, 64] block of rows that starts at array row r0, the
  value stored at (p, q) is leaky(Σⱼ leaky(h(p, j)) · G(j, q) + bias(q) + x̂(p, q)); the specification's combine stage
  at (r0 + p, q) is the same expression in the arrays' entries, so the two agree once the block entries are the array
  entries of rows r0 + p.
-/
import proofs.«155893_j10900626998075_1_alg».proof.Proof.PwCommon

noncomputable section

open scoped BigOperators

namespace Cert.Pointwise

open Idealize.ShloMosaic Idealize.ShloMosaic.ValueIdx

/-- The region's stored value at (p, q), as one expression in the entries of what it loaded. -/
theorem k2_pay1_apply (h : Vec Ideal Cert.KernelIdeal.S2000x64 .f32) (g : Vec Ideal Cert.KernelIdeal.S64x64 .f32) (b : Vec Ideal Cert.KernelIdeal.S64 .f32)
    (xh : Vec Ideal Cert.KernelIdeal.S2000x64 .f32) (p : Fin 2000) (q : Fin 64) :
    Cert.KernelIdeal.Gen.k2_pay1 (F := Ideal) h g b xh (ix2 p q)
      = leakyS ((∑ j : Fin 64, leakyS (h (ix2 p j)) * g (ix2 j q)) + b (ix1 q) + xh (ix2 p q)) := by
  unfold Cert.KernelIdeal.Gen.k2_pay1
  refine (kleaky_apply _ _).trans (congrArg leakyS ?_)
  refine (addf_apply _ _ _).trans (congrArg₂ (· + ·) ?_ (congrFun (shapeCast_self xh _) _))
  refine (addf_apply _ _ _).trans (congrArg₂ (· + ·) ?_ (kbias_apply b _ _ p q))
  refine (kmatmul64_apply _ _ p q).trans (Finset.sum_congr rfl fun j _ => congrArg₂ (· * ·) ?_ rfl)
  exact (kleaky_apply _ _).trans (congrArg leakyS (congrFun (shapeCast_self h _) _))

/-- The specification's combine stage at (r, q), as the same expression in the arrays' entries. -/
theorem combine_apply (H : Cert.Spec.Arr Cert.ReferenceIdeal.S100000x64) (G : Cert.Spec.Arr Cert.ReferenceIdeal.S64x64) (B : Cert.Spec.Arr Cert.ReferenceIdeal.S64)
    (XH : Cert.Spec.Arr Cert.ReferenceIdeal.S100000x64) (r : Fin 100000) (q : Fin 64) :
    Cert.Spec.combine H G B XH (ix2 r q)
      = leakyS ((∑ j : Fin 64, leakyS (H (ix2 r j)) * G (ix2 j q)) + B (ix1 q) + XH (ix2 r q)) := by
  unfold Cert.Spec.combine
  refine (leaky_apply _ _).trans (congrArg leakyS ?_)
  refine (addf_apply _ _ _).trans (congrArg₂ (· + ·) ?_ rfl)
  refine (addf_apply _ _ _).trans (congrArg₂ (· + ·) ?_ (biasRows_apply B r q))
  refine (proj64_apply _ _ r q).trans (Finset.sum_congr rfl fun j _ => congrArg₂ (· * ·) ?_ rfl)
  exact leaky_apply _ _

/-- The first layer's closing region against the combine stage: block row p of the tile at array row r0 is array row r0 + p. -/
theorem combine_at2 (H : Cert.Spec.Arr Cert.ReferenceIdeal.S100000x64) (G : Cert.Spec.Arr Cert.ReferenceIdeal.S64x64) (B : Cert.Spec.Arr Cert.ReferenceIdeal.S64)
    (XH : Cert.Spec.Arr Cert.ReferenceIdeal.S100000x64)
    (h : Vec Ideal Cert.KernelIdeal.S2000x64 .f32) (g : Vec Ideal Cert.KernelIdeal.S64x64 .f32) (b : Vec Ideal Cert.KernelIdeal.S64 .f32) (xh : Vec Ideal Cert.KernelIdeal.S2000x64 .f32)
    (r0 : ℕ) (hr : r0 + 2000 ≤ 100000)
    (hh : ∀ (p : Fin 2000) (j : Fin 64), h (ix2 p j) = H (ix2 (⟨r0 + p.val, by omega⟩ : Fin 100000) j))
    (hg : ∀ (j q : Fin 64), g (ix2 j q) = G (ix2 j q)) (hb : ∀ q : Fin 64, b (ix1 q) = B (ix1 q))
    (hxh : ∀ (p : Fin 2000) (q : Fin 64), xh (ix2 p q) = XH (ix2 (⟨r0 + p.val, by omega⟩ : Fin 100000) q))
    (p : Fin 2000) (q : Fin 64) :
    Cert.KernelIdeal.Gen.k2_pay1 (F := Ideal) h g b xh (ix2 p q)
      = Cert.Spec.combine H G B XH (ix2 (⟨r0 + p.val, by omega⟩ : Fin 100000) q) := by
  refine (k2_pay1_apply h g b xh p q).trans (Eq.trans ?_ (combine_apply H G B XH _ q).symm)
  rw [hb q, hxh p q]
  refine congrArg (fun s => leakyS (s + B (ix1 q) + XH (ix2 (⟨r0 + p.val, by omega⟩ : Fin 100000) q)))
    (Finset.sum_congr rfl fun j _ => ?_)
  rw [hh p j, hg j q]

/-- The second layer's closing region is the same term. -/
theorem combine_at4 (H : Cert.Spec.Arr Cert.ReferenceIdeal.S100000x64) (G : Cert.Spec.Arr Cert.ReferenceIdeal.S64x64) (B : Cert.Spec.Arr Cert.ReferenceIdeal.S64)
    (XH : Cert.Spec.Arr Cert.ReferenceIdeal.S100000x64)
    (h : Vec Ideal Cert.KernelIdeal.S2000x64 .f32) (g : Vec Ideal Cert.KernelIdeal.S64x64 .f32) (b : Vec Ideal Cert.KernelIdeal.S64 .f32) (xh : Vec Ideal Cert.KernelIdeal.S2000x64 .f32)
    (r0 : ℕ) (hr : r0 + 2000 ≤ 100000)
    (hh : ∀ (p : Fin 2000) (j : Fin 64), h (ix2 p j) = H (ix2 (⟨r0 + p.val, by omega⟩ : Fin 100000) j))
    (hg : ∀ (j q : Fin 64), g (ix2 j q) = G (ix2 j q)) (hb : ∀ q : Fin 64, b (ix1 q) = B (ix1 q))
    (hxh : ∀ (p : Fin 2000) (q : Fin 64), xh (ix2 p q) = XH (ix2 (⟨r0 + p.val, by omega⟩ : Fin 100000) q))
    (p : Fin 2000) (q : Fin 64) :
    Cert.KernelIdeal.Gen.k4_pay1 (F := Ideal) h g b xh (ix2 p q)
      = Cert.Spec.combine H G B XH (ix2 (⟨r0 + p.val, by omega⟩ : Fin 100000) q) :=
  (show Cert.KernelIdeal.Gen.k4_pay1 (F := Ideal) h g b xh (ix2 p q) = Cert.KernelIdeal.Gen.k2_pay1 (F := Ideal) h g b xh (ix2 p q) from rfl).trans
    (combine_at2 H G B XH h g b xh r0 hr hh hg hb hxh p q)

end Cert.Pointwise

end
-- ==== Proof.lean ====
/-
  A two-layer graph convolution over 100000 nodes and 2,000,000 edges: the stacked input features are divided row by row by
  max(‖row‖₂, ε); each layer projects the node array, aggregates the projected rows over the edges with weights
  deg(destination)^(-1/2) · deg(source)^(-1/2), and combines the leaky-rectified aggregate (times a matrix, plus a bias) with
  x̂ = leaky(x · L + bias) + id embedding under a final leaky rectifier.

  The kernel computes the three dense stages (row normalization; the two projections; the combining stage) in row-tiled
  regions of 2000 rows and leaves the edge gather, scaling and scatter-add to host operations between them; the reference is
  host operations throughout. Over the extended reals a change of float format is the identity, a product by the matrix
  unit into a zero accumulator and the host's dot product are the same sum, a lane sum and the host's reduction are the same
  sum, and a row tiling only changes which point writes which rows. So each region's output array is the reference's stage
  of the region's input arrays (block by block, then by the cover of the rows), the host stretches are the reference's own
  operations on equal operands, and the two results are one function of the fourteen arguments. No law that needs finite
  entries is used: the two sides are the same expression entry by entry.

  The three frames: the word-level kernel's and the idealized kernel's are the generated frames of their five regions; the
  reference's is its run with the result dropped. The idealization rewrote nothing, so there is nothing to preserve.
-/
import proofs.«155893_j10900626998075_1_alg».proof.Defs
import proofs.«155893_j10900626998075_1_alg».proof.Proof.Gen.Kernel
import proofs.«155893_j10900626998075_1_alg».proof.Proof.Gen.Kernel.Skeleton
import proofs.«155893_j10900626998075_1_alg».proof.Proof.Gen.Kernel.Launch
import proofs.«155893_j10900626998075_1_alg».proof.Proof.Gen.Kernel.Points
import proofs.«155893_j10900626998075_1_alg».proof.Proof.Gen.Kernel.Frame
import proofs.«155893_j10900626998075_1_alg».proof.Proof.Gen.KernelIdeal
import proofs.«155893_j10900626998075_1_alg».proof.Proof.Gen.KernelIdeal.Skeleton
import proofs.«155893_j10900626998075_1_alg».proof.Proof.Gen.KernelIdeal.Launch
import proofs.«155893_j10900626998075_1_alg».proof.Proof.Gen.KernelIdeal.Points
import proofs.«155893_j10900626998075_1_alg».proof.Proof.Gen.KernelIdeal.Frame
import proofs.«155893_j10900626998075_1_alg».proof.Proof.Gen.ReferenceIdeal
import proofs.«155893_j10900626998075_1_alg».proof.Proof.Gen.Pre_finite_inputs
import proofs.«155893_j10900626998075_1_alg».proof.Proof.KernelRun
import proofs.«155893_j10900626998075_1_alg».proof.Proof.Thread
import proofs.«155893_j10900626998075_1_alg».proof.Proof.RefOut
import proofs.«155893_j10900626998075_1_alg».proof.Proof.PwNormalize
import proofs.«155893_j10900626998075_1_alg».proof.Proof.PwAB256
import proofs.«155893_j10900626998075_1_alg».proof.Proof.PwAB64
import proofs.«155893_j10900626998075_1_alg».proof.Proof.PwCombine
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both idealized programs end with the result array at the specification's computation of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Thread.result_eq m ρ c
          (fun X x0 r0 hr hx p q => Cert.Pointwise.normalize_at X x0 r0 hr hx p q)
          (fun X W x0 w r0 hr hx hw p q => Cert.Pointwise.proj256_at X W x0 w r0 hr hx hw p q)
          (fun X L B ID x0 l b idb r0 hr hx hl hb hid p q => Cert.Pointwise.hat256_at X L B ID x0 l b idb r0 hr hx hl hb hid p q)
          (fun H G B XH h g b xh r0 hr hh hg hb hxh p q => Cert.Pointwise.combine_at2 H G B XH h g b xh r0 hr hh hg hb hxh p q)
          (fun X W x0 w r0 hr hx hw p q => Cert.Pointwise.proj64_at X W x0 w r0 hr hx hw p q)
          (fun X L B ID x0 l b idb r0 hr hx hl hb hid p q => Cert.Pointwise.hat64_at X L B ID x0 l b idb r0 hr hx hl hb hid p q)
          (fun H G B XH h g b xh r0 hr hh hg hb hxh p q => Cert.Pointwise.combine_at4 H G B XH h g b xh r0 hr hh hg hb hxh p q)),
        (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
